-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v64) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x1200000 : Shape := ⟨2, ![2, 1200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S64x64 .f32) (main_arg8 : FVec F S64 .f32) (main_arg9 : FVec F S64x2 .f32) (main_arg10 : FVec F S2 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg9
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S100000x512 .f32) (main_arg1 : FVec F S512x128 .f32) (main_arg2 : FVec F S128 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x2 .f32) (main_arg10 : FVec F S2 .f32) (main_arg11 : IVec S2x1200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_v13 main_v16
-- ==== Kernel.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x1200000 : Shape := ⟨2, ![2, 1200000]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1x128 : Shape := ⟨2, ![1, 128]⟩
abbrev S100000x128 : Shape := ⟨2, ![100000, 128]⟩
abbrev S4000x512 : Shape := ⟨2, ![4000, 512]⟩
abbrev S4000x128 : Shape := ⟨2, ![4000, 128]⟩
abbrev S1x64 : Shape := ⟨2, ![1, 64]⟩
abbrev S100000x64 : Shape := ⟨2, ![100000, 64]⟩
abbrev S4000x64 : Shape := ⟨2, ![4000, 64]⟩
abbrev S1200000x64 : Shape := ⟨2, ![1200000, 64]⟩
abbrev S100000x1 : Shape := ⟨2, ![100000, 1]⟩
abbrev S4000x1 : Shape := ⟨2, ![4000, 1]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 92
  | .vmem => 46
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x2, .f32⟩
  | .hbm, ⟨10, _⟩ => ⟨S2, .f32⟩
  | .hbm, ⟨11, _⟩ => ⟨S2x1200000, .i32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S_, .f32⟩
  | .hbm, ⟨17, _⟩ => ⟨S1200000, .f32⟩
  | .hbm, ⟨18, _⟩ => ⟨S_, .f32⟩
  | .hbm, ⟨19, _⟩ => ⟨S100000, .f32⟩
  | .hbm, ⟨20, _⟩ => ⟨S1200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1200000, .i32⟩
  | .hbm, ⟨29, _⟩ => ⟨S1200000, .i1⟩
  | .hbm, ⟨30, _⟩ => ⟨S_, .i32⟩
  | .hbm, ⟨31, _⟩ => ⟨S1200000, .i32⟩
  | .hbm, ⟨32, _⟩ => ⟨S1200000, .i32⟩
  | .hbm, ⟨33, _⟩ => ⟨S1200000, .i32⟩
  | .hbm, ⟨34, _⟩ => ⟨S1200000x1, .i32⟩
  | .hbm, ⟨35, _⟩ => ⟨S1200000, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000, .f32⟩
  | .hbm, ⟨45, _⟩ => ⟨S1200000, .f32⟩
  | .hbm, ⟨46, _⟩ => ⟨S1x128, .f32⟩
  | .hbm, ⟨47, _⟩ => ⟨S100000x128, .f32⟩
  | .hbm, ⟨48, _⟩ => ⟨S1x64, .f32⟩
  | .hbm, ⟨49, _⟩ => ⟨S100000x64, .f32⟩
  | .hbm, ⟨50, _⟩ => ⟨S100000x64, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x64, .f32⟩
  | .hbm, ⟨60, _⟩ => ⟨S1200000x1, .f32⟩
  | .hbm, ⟨61, _⟩ => ⟨S1200000x64, .f32⟩
  | .hbm, ⟨62, _⟩ => ⟨S1200000x64, .f32⟩
  | .hbm, ⟨63, _⟩ => ⟨S_, .f32⟩
  | .hbm, ⟨64, _⟩ => ⟨S100000x64, .f32⟩
  | .hbm, ⟨65, _⟩ => ⟨S1200000x1, .i32⟩
  | .hbm, ⟨66, _⟩ => ⟨S100000x64, .f32⟩
  | .hbm, ⟨67, _⟩ => ⟨S100000x1, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1200000, .i32⟩
  | .hbm, ⟨73, _⟩ => ⟨S1200000, .i1⟩
  | .hbm, ⟨74, _⟩ => ⟨S_, .i32⟩
  | .hbm, ⟨75, _⟩ => ⟨S1200000, .i32⟩
  | .hbm, ⟨76, _⟩ => ⟨S1200000, .i32⟩
  | .hbm, ⟨77, _⟩ => ⟨S1200000, .i32⟩
  | .hbm, ⟨78, _⟩ => ⟨S1200000x1, .i32⟩
  | .hbm, ⟨79, _⟩ => ⟨S1200000x64, .f32⟩
  | .hbm, ⟨80, _⟩ => ⟨S1200000x1, .f32⟩
  | .hbm, ⟨81, _⟩ => ⟨S1200000x64, .f32⟩
  | .hbm, ⟨82, _⟩ => ⟨S1200000x64, .f32⟩
  | .hbm, ⟨83, _⟩ => ⟨S_, .f32⟩
  | .hbm, ⟨84, _⟩ => ⟨S100000x64, .f32⟩
  | .hbm, ⟨85, _⟩ => ⟨S1200000x1, .i32⟩
  | .hbm, ⟨86, _⟩ => ⟨S100000x64, .f32⟩
  | .hbm, ⟨87, _⟩ => ⟨S100000x1, .f32⟩
  | .hbm, ⟨88, _⟩ => ⟨S1x64, .f32⟩
  | .hbm, ⟨89, _⟩ => ⟨S100000x64, .f32⟩
  | .hbm, ⟨90, _⟩ => ⟨S1x2, .f32⟩
  | .hbm, ⟨91, _⟩ => ⟨S100000x2, .f32⟩
  | .local _ .vmem, ⟨0, _⟩ => ⟨S4000x512, .f32⟩
  | .local _ .vmem, ⟨1, _⟩ => ⟨S4000x512, .f32⟩
  | .local _ .vmem, ⟨2, _⟩ => ⟨S512x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S64x64, .f32⟩
  | .local _ .vmem, ⟨15, _⟩ => ⟨S4000x64, .f32⟩
  | .local _ .vmem, ⟨16, _⟩ => ⟨S4000x64, .f32⟩
  | .local _ .vmem, ⟨17, _⟩ => ⟨S4000x64, .f32⟩
  | .local _ .vmem, ⟨18, _⟩ => ⟨S4000x64, .f32⟩
  | .local _ .vmem, ⟨19, _⟩ => ⟨S4000x64, .f32⟩
  | .local _ .vmem, ⟨20, _⟩ => ⟨S4000x64, .f32⟩
  | .local _ .vmem, ⟨21, _⟩ => ⟨S4000x1, .f32⟩
  | .local _ .vmem, ⟨22, _⟩ => ⟨S4000x1, .f32⟩
  | .local _ .vmem, ⟨23, _⟩ => ⟨S1x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S64x64, .f32⟩
  | .local _ .vmem, ⟨29, _⟩ => ⟨S4000x64, .f32⟩
  | .local _ .vmem, ⟨30, _⟩ => ⟨S4000x64, .f32⟩
  | .local _ .vmem, ⟨31, _⟩ => ⟨S4000x64, .f32⟩
  | .local _ .vmem, ⟨32, _⟩ => ⟨S4000x64, .f32⟩
  | .local _ .vmem, ⟨33, _⟩ => ⟨S4000x64, .f32⟩
  | .local _ .vmem, ⟨34, _⟩ => ⟨S4000x64, .f32⟩
  | .local _ .vmem, ⟨35, _⟩ => ⟨S4000x1, .f32⟩
  | .local _ .vmem, ⟨36, _⟩ => ⟨S4000x1, .f32⟩
  | .local _ .vmem, ⟨37, _⟩ => ⟨S1x64, .f32⟩
  | .local _ .vmem, ⟨38, _⟩ => ⟨S4000x64, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S64x2, .f32⟩
  | .local _ .vmem, ⟨43, _⟩ => ⟨S1x2, .f32⟩
  | .local _ .vmem, ⟨44, _⟩ => ⟨S4000x2, .f32⟩
  | .local _ .vmem, ⟨45, _⟩ => ⟨S4000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_8 : Ref sig .tc := ⟨.hbm, 71, rfl⟩
abbrev main_v49 : Ref sig .tc := ⟨.hbm, 72, rfl⟩
abbrev main_v50 : Ref sig .tc := ⟨.hbm, 73, rfl⟩
abbrev main_c_9 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg4_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem4_0 : DmaSem sig := 24
abbrev cc3_sem4_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S4000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S4000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  shapeCasts_S128_S1x128 : S128.ShapeCasts S1x128
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  shapeCasts_S64_S1x64 : S64.ShapeCasts S1x64
  shapeCasts_S4000x128_S4000x128 : S4000x128.ShapeCasts S4000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  shapeCasts_S100000_S100000x1 : S100000.ShapeCasts S100000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S4000x512_S512x128_S4000x128_1_0_0_1_n_n_wf : DotDims.WF S4000x512 S512x128 S4000x128 [1] [0] [0] [1] [] []
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S4000x64_S64x2_S4000x2_1_0_0_1_n_n_wf : DotDims.WF S4000x64 S64x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S100000x64.size a
  hwx1_3 : ∀ i : grid1.Coords, EltTy.bits .f32 = 32 ∨ (Rect.block (s := S100000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S100000x64.size a
  hwx3_0 : ∀ i : grid3.Coords, EltTy.bits .f32 = 32 ∨ (Rect.block (s := S100000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x64.size a ≤ S100000x64.size a
  hwx3_1 : ∀ i : grid3.Coords, EltTy.bits .f32 = 32 ∨ (Rect.block (s := S100000x64) S4000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S100000x64.size a
  hwx5_0 : ∀ i : grid5.Coords, EltTy.bits .f32 = 32 ∨ (Rect.block (s := S100000x64) S4000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4000x64.size a ≤ S100000x64.size a
  hwx5_1 : ∀ i : grid5.Coords, EltTy.bits .f32 = 32 ∨ (Rect.block (s := S100000x64) S4000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x1.size a ≤ S100000x1.size a
  hwx5_2 : ∀ i : grid5.Coords, EltTy.bits .f32 = 32 ∨ (Rect.block (s := S100000x1) S4000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4000x64.size a ≤ S100000x64.size a
  hwx5_4 : ∀ i : grid5.Coords, EltTy.bits .f32 = 32 ∨ (Rect.block (s := S100000x64) S4000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x2.size a ≤ S64x2.size a
  hwx6_1 : ∀ i : grid6.Coords, EltTy.bits .f32 = 32 ∨ (Rect.block (s := S64x2) S64x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x2.size a ≤ S100000x2.size a
  hwx6_3 : ∀ i : grid6.Coords, EltTy.bits .f32 = 32 ∨ (Rect.block (s := S100000x2) S4000x2.size (cc6_transform_3 i) (hinb6_3 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S4000x512_S512x128_S4000x128_1_0_0_1_n_n : DotDims S4000x512 S512x128 S4000x128 where
  lhsContracting := [1]
  rhsContracting := [0]
  lhsNonContracting := [0]
  rhsNonContracting := [1]
  lhsBatch := []
  rhsBatch := []
  wf := dot_S4000x512_S512x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S4000x64_S64x2_S4000x2_1_0_0_1_n_n : DotDims S4000x64 S64x2 S4000x2 where
  lhsContracting := [1]
  rhsContracting := [0]
  lhsNonContracting := [0]
  rhsNonContracting := [1]
  lhsBatch := []
  rhsBatch := []
  wf := dot_S4000x64_S64x2_S4000x2_1_0_0_1_n_n_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v31) S4000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S4000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v47) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v48) S4000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v61) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S4000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v62) S4000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v63) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v64) S4000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v64) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v65) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S4000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S2x1200000 : Shape := ⟨2, ![2, 1200000]⟩
abbrev S1x1200000 : Shape := ⟨2, ![1, 1200000]⟩
abbrev S1200000 : Shape := ⟨1, ![1200000]⟩
abbrev S100000x128 : Shape := ⟨2, ![100000, 128]⟩
abbrev S1x128 : Shape := ⟨2, ![1, 128]⟩
abbrev S_ : Shape := ⟨0, ![]⟩
abbrev S100000x64 : Shape := ⟨2, ![100000, 64]⟩
abbrev S1x64 : Shape := ⟨2, ![1, 64]⟩
abbrev S100000 : Shape := ⟨1, ![100000]⟩
abbrev S1200000x1 : Shape := ⟨2, ![1200000, 1]⟩
abbrev S1200000x64 : Shape := ⟨2, ![1200000, 64]⟩
abbrev S100000x1 : Shape := ⟨2, ![100000, 1]⟩
abbrev S100000x2 : Shape := ⟨2, ![100000, 2]⟩
abbrev S1x2 : Shape := ⟨2, ![1, 2]⟩

abbrev nBuf : Space → Nat
  | .hbm => 164
  | .vmem => 0
  | .smem => 0
  | _ => 0

abbrev hbmTy0_0 (i : Nat) : BufTy := match i % 128 with
  | 0 => ⟨S100000x512, .f32⟩
  | 1 => ⟨S512x128, .f32⟩
  | 2 => ⟨S128, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x2, .f32⟩
  | 10 => ⟨S2, .f32⟩
  | 11 => ⟨S2x1200000, .i32⟩
  | 12 => ⟨S1x1200000, .i32⟩
  | 13 => ⟨S1200000, .i32⟩
  | 14 => ⟨S1x1200000, .i32⟩
  | 15 => ⟨S1200000, .i32⟩
  | 16 => ⟨S100000x128, .f32⟩
  | 17 => ⟨S1x128, .f32⟩
  | 18 => ⟨S100000x128, .f32⟩
  | 19 => ⟨S100000x128, .f32⟩
  | 20 => ⟨S_, .f32⟩
  | 21 => ⟨S100000x128, .f32⟩
  | 22 => ⟨S100000x128, .i1⟩
  | 23 => ⟨S_, .f32⟩
  | 24 => ⟨S100000x128, .f32⟩
  | 25 => ⟨S100000x128, .f32⟩
  | 26 => ⟨S100000x128, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S100000x64, .f32⟩
  | 33 => ⟨S100000x64, .i1⟩
  | 34 => ⟨S_, .f32⟩
  | 35 => ⟨S100000x64, .f32⟩
  | 36 => ⟨S100000x64, .f32⟩
  | 37 => ⟨S100000x64, .f32⟩
  | 38 => ⟨S100000x64, .f32⟩
  | 39 => ⟨S_, .f32⟩
  | 40 => ⟨S1200000, .f32⟩
  | 41 => ⟨S_, .f32⟩
  | 42 => ⟨S100000, .f32⟩
  | 43 => ⟨S1200000x1, .i32⟩
  | 44 => ⟨S100000, .f32⟩
  | 45 => ⟨S_, .f32⟩
  | 46 => ⟨S100000, .f32⟩
  | 47 => ⟨S100000, .f32⟩
  | 48 => ⟨S100000, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000, .f32⟩
  | 58 => ⟨S_, .i32⟩
  | 59 => ⟨S1200000, .i32⟩
  | 60 => ⟨S1200000, .i1⟩
  | 61 => ⟨S_, .i32⟩
  | 62 => ⟨S1200000, .i32⟩
  | 63 => ⟨S1200000, .i32⟩
  | 64 => ⟨S1200000, .i32⟩
  | 65 => ⟨S1200000x1, .i32⟩
  | 66 => ⟨S1200000, .f32⟩
  | 67 => ⟨S1200000, .f32⟩
  | 68 => ⟨S1200000x1, .f32⟩
  | 69 => ⟨S_, .i32⟩
  | 70 => ⟨S1200000, .i32⟩
  | 71 => ⟨S1200000, .i1⟩
  | 72 => ⟨S_, .i32⟩
  | 73 => ⟨S1200000, .i32⟩
  | 74 => ⟨S1200000, .i32⟩
  | 75 => ⟨S1200000, .i32⟩
  | 76 => ⟨S1200000x1, .i32⟩
  | 77 => ⟨S1200000x64, .f32⟩
  | 78 => ⟨S1200000x64, .f32⟩
  | 79 => ⟨S1200000x64, .f32⟩
  | 80 => ⟨S_, .f32⟩
  | 81 => ⟨S100000x64, .f32⟩
  | 82 => ⟨S1200000x1, .i32⟩
  | 83 => ⟨S100000x64, .f32⟩
  | 84 => ⟨S100000, .f32⟩
  | 85 => ⟨S100000x1, .f32⟩
  | 86 => ⟨S100000x64, .f32⟩
  | 87 => ⟨S100000x64, .f32⟩
  | 88 => ⟨S100000x64, .f32⟩
  | 89 => ⟨S1x64, .f32⟩
  | 90 => ⟨S100000x64, .f32⟩
  | 91 => ⟨S100000x64, .f32⟩
  | 92 => ⟨S_, .f32⟩
  | 93 => ⟨S100000x64, .f32⟩
  | 94 => ⟨S100000x64, .i1⟩
  | 95 => ⟨S_, .f32⟩
  | 96 => ⟨S100000x64, .f32⟩
  | 97 => ⟨S100000x64, .f32⟩
  | 98 => ⟨S100000x64, .f32⟩
  | 99 => ⟨S100000x64, .f32⟩
  | 100 => ⟨S_, .f32⟩
  | 101 => ⟨S1200000, .f32⟩
  | 102 => ⟨S_, .f32⟩
  | 103 => ⟨S100000, .f32⟩
  | 104 => ⟨S1200000x1, .i32⟩
  | 105 => ⟨S100000, .f32⟩
  | 106 => ⟨S_, .f32⟩
  | 107 => ⟨S100000, .f32⟩
  | 108 => ⟨S100000, .f32⟩
  | 109 => ⟨S100000, .f32⟩
  | 110 => ⟨S_, .i32⟩
  | 111 => ⟨S1200000, .i32⟩
  | 112 => ⟨S1200000, .i1⟩
  | 113 => ⟨S_, .i32⟩
  | 114 => ⟨S1200000, .i32⟩
  | 115 => ⟨S1200000, .i32⟩
  | 116 => ⟨S1200000, .i32⟩
  | 117 => ⟨S1200000x1, .i32⟩
  | 118 => ⟨S1200000, .f32⟩
  | 119 => ⟨S_, .i32⟩
  | 120 => ⟨S1200000, .i32⟩
  | 121 => ⟨S1200000, .i1⟩
  | 122 => ⟨S_, .i32⟩
  | 123 => ⟨S1200000, .i32⟩
  | 124 => ⟨S1200000, .i32⟩
  | 125 => ⟨S1200000, .i32⟩
  | 126 => ⟨S1200000x1, .i32⟩
  | 127 => ⟨S1200000, .f32⟩
  | _ => ⟨S100000x512, .f32⟩

abbrev hbmTy0_1 (i : Nat) : BufTy := match i % 128 with
  | 0 => ⟨S1200000, .f32⟩
  | 1 => ⟨S1200000x1, .f32⟩
  | 2 => ⟨S_, .i32⟩
  | 3 => ⟨S1200000, .i32⟩
  | 4 => ⟨S1200000, .i1⟩
  | 5 => ⟨S_, .i32⟩
  | 6 => ⟨S1200000, .i32⟩
  | 7 => ⟨S1200000, .i32⟩
  | 8 => ⟨S1200000, .i32⟩
  | 9 => ⟨S1200000x1, .i32⟩
  | 10 => ⟨S1200000x64, .f32⟩
  | 11 => ⟨S1200000x64, .f32⟩
  | 12 => ⟨S1200000x64, .f32⟩
  | 13 => ⟨S_, .f32⟩
  | 14 => ⟨S100000x64, .f32⟩
  | 15 => ⟨S1200000x1, .i32⟩
  | 16 => ⟨S100000x64, .f32⟩
  | 17 => ⟨S100000, .f32⟩
  | 18 => ⟨S100000x1, .f32⟩
  | 19 => ⟨S100000x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .i1⟩
  | 28 => ⟨S_, .f32⟩
  | 29 => ⟨S100000x64, .f32⟩
  | 30 => ⟨S100000x64, .f32⟩
  | 31 => ⟨S100000x64, .f32⟩
  | 32 => ⟨S100000x2, .f32⟩
  | 33 => ⟨S1x2, .f32⟩
  | 34 => ⟨S100000x2, .f32⟩
  | 35 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_12 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_16 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_19 : Ref sig .tc := ⟨.hbm, 119, rfl⟩
abbrev main_v86 : Ref sig .tc := ⟨.hbm, 120, rfl⟩
abbrev main_v87 : Ref sig .tc := ⟨.hbm, 121, rfl⟩
abbrev main_c_20 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_c_21 : Ref sig .tc := ⟨.hbm, 130, rfl⟩
abbrev main_v95 : Ref sig .tc := ⟨.hbm, 131, rfl⟩
abbrev main_v96 : Ref sig .tc := ⟨.hbm, 132, rfl⟩
abbrev main_c_22 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_23 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_24 : Ref sig .tc := ⟨.hbm, 153, rfl⟩
abbrev main_v115 : Ref sig .tc := ⟨.hbm, 154, rfl⟩
abbrev main_v116 : Ref sig .tc := ⟨.hbm, 155, rfl⟩
abbrev main_cst_25 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x512_S512x128_S100000x128_1_0_0_1_n_n_wf : DotDims.WF S100000x512 S512x128 S100000x128 [1] [0] [0] [1] [] []
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S100000x64_S64x2_S100000x2_1_0_0_1_n_n_wf : DotDims.WF S100000x64 S64x2 S100000x2 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.KRun.lean ====
/-
  The kernel program's run with its two results named.

  The program is a chain of host stretches and pallas_calls; the buffer contents at every boundary are the fold
  `W0 … W12` of the generated frame proof. The frame theorem there keeps, of the last boundary `W12`, only the
  argument arrays. The same launch, read at the two result buffers as well, says: every weakly fair execution
  terminates, nothing faults, the logits buffer ends at `W12`'s contents of it, the embedding buffer at
  `W12`'s contents of it, and the arguments end as launched. What those contents are is the business of the
  modules that walk the fold.
-/
import proofs.«156511_j87832081203316_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the kernel program terminates without a
    fault; the two result buffers end at the last boundary's contents and the arguments end as launched. -/
theorem run_values : θ_run defs (onTc (τ := τ) (main (F := F))) ⟨m, fun _ => 0, ρ⟩ (fun r => ∀ c : Dev nD,
      r.2.mem ((c.tc : Thread nD τ).loc main_v66) = W12 m ρ c (Proc.devRef .tc main_v66)
      ∧ r.2.mem ((c.tc : Thread nD τ).loc main_v64) = W12 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v66 (by decide)),
       h c _ (mem_uc main_v64 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.RunValue

end
-- ==== Proof.Spec.lean ====
/-
  The network both programs compute, layer by layer, as functions of whole arrays.

  A graph of 100000 nodes and 1200000 directed edges (src e → dst e) carries a feature matrix through
    h1 = lrelu (x · W1 + b1)            [100000, 128]
    h2 = lrelu (h1 · W2 + b2)           [100000, 64]
    h3 = lrelu (gcn h2 Wg1 bg1)         [100000, 64]
    h4 = lrelu (gcn h3 Wg2 bg2)         [100000, 64]
    logits = h4 · Wc + bc               [100000, 2]
  where lrelu y = y if y ≥ 0 else 0.01·y, and one graph convolution of h with weight W and bias b is
    hw = h · W,   deg v = 1 + #{e | dst e = v},   dinv = deg^(-1/2),
    agg v = ∑_{e : dst e = v} hw (src e) · (dinv (src e) · dinv (dst e)),
    gcn = agg + hw · dinv² + b.
  Every function below is written with the host operations of the reference program (its shapes, its
  dimension records), on the arrays an operation takes — not on the program's arguments — so that the same
  function can be met from the kernel's side one pallas_call at a time. (The dimension records take the
  reference program's stated side conditions; the module that proves them is imported for the instance.)
-/
import proofs.«156511_j87832081203316_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-! ## The edge list -/

/-- Row 0 of the edge list: the source node of every edge. -/
def srcOf (e : (⟨S2x1200000, .i32⟩ : BufTy).Contents (Elt F)) : (⟨S1200000, .i32⟩ : BufTy).Contents (Elt F) :=
  shapeCast _ (extractStridedSlice S1x1200000 ![0, 0] e slices_S2x1200000_S1x1200000_0_0) shapeCasts_S1x1200000_S1200000

/-- Row 1 of the edge list: the destination node of every edge. -/
def dstOf (e : (⟨S2x1200000, .i32⟩ : BufTy).Contents (Elt F)) : (⟨S1200000, .i32⟩ : BufTy).Contents (Elt F) :=
  shapeCast _ (extractStridedSlice S1x1200000 ![1, 0] e slices_S2x1200000_S1x1200000_1_0) shapeCasts_S1x1200000_S1200000

/-- A node index as jnp reads it before a gather: a negative index counts from the end (v + 100000). -/
def wrap (v : (⟨S1200000, .i32⟩ : BufTy).Contents (Elt F)) : (⟨S1200000, .i32⟩ : BufTy).Contents (Elt F) :=
  select (cmpi .slt v (broadcastInDim S1200000 ![] bcast_S_S1200000 (constantI S_ 32 0#32)))
    (addi v (broadcastInDim S1200000 ![] bcast_S_S1200000 (constantI S_ 32 100000#32))) v

/-- A vector of edge indices as the column of start indices a gather or a scatter takes. -/
def col (v : (⟨S1200000, .i32⟩ : BufTy).Contents (Elt F)) : (⟨S1200000x1, .i32⟩ : BufTy).Contents (Elt F) :=
  broadcastInDim S1200000x1 ![0] bcast_S1200000_S1200000x1_0 v

/-! ## The symmetric normalization -/

/-- deg^(-1/2): the in-degree of every node (a scatter-add of ones at the destinations into zeros), plus one for
    the self loop, under the reciprocal square root. -/
def dinvOf (dst : (⟨S1200000, .i32⟩ : BufTy).Contents (Elt F)) : FVec F S100000 .f32 :=
  Host.rsqrt (addf
    (Host.scatterAdd scatter_S100000_S1200000x1_S1200000_n_0_0_1
      (broadcastInDim S100000 ![] bcast_S_S100000 (constant S_ .f32 0x00000000#32)) (col dst)
      (broadcastInDim S1200000 ![] bcast_S_S1200000 (constant S_ .f32 0x3F800000#32)))
    (broadcastInDim S100000 ![] bcast_S_S100000 (constant S_ .f32 0x3F800000#32)))

/-- The weight of every edge: dinv at its source times dinv at its destination. -/
def coefOf (src dst : (⟨S1200000, .i32⟩ : BufTy).Contents (Elt F)) (dinv : FVec F S100000 .f32) : FVec F S1200000 .f32 :=
  mulf (Host.gather gather_S100000_S1200000x1_S1200000_n_0_n_n_0_1_1 dinv (col (wrap src)))
       (Host.gather gather_S100000_S1200000x1_S1200000_n_0_n_n_0_1_1 dinv (col (wrap dst)))

/-- The neighbourhood sum: every edge carries its source's row of `hw`, scaled by the edge's weight, to its
    destination. -/
def aggregate (src dst : (⟨S1200000, .i32⟩ : BufTy).Contents (Elt F)) (coef : FVec F S1200000 .f32)
    (hw : FVec F S100000x64 .f32) : FVec F S100000x64 .f32 :=
  Host.scatterAdd scatter_S100000x64_S1200000x1_S1200000x64_1_0_0_1
    (broadcastInDim S100000x64 ![] bcast_S_S100000x64 (constant S_ .f32 0x00000000#32)) (col dst)
    (mulf (Host.gather gather_S100000x64_S1200000x1_S1200000x64_1_0_n_n_0_1_164 hw (col (wrap src)))
      (broadcastInDim S1200000x64 ![0, 1] bcast_S1200000x1_S1200000x64_0_1
        (broadcastInDim S1200000x1 ![0] bcast_S1200000_S1200000x1_0 coef)))

/-! ## The dense layers -/

/-- lrelu on a [100000, 128] array: y where y ≥ 0, 0.01·y elsewhere (0.01 as the f32 both programs hold). -/
def lrelu128 (y : FVec F S100000x128 .f32) : FVec F S100000x128 .f32 :=
  select (cmpf .oge y (broadcastInDim S100000x128 ![] bcast_S_S100000x128 (constant S_ .f32 0x00000000#32))) y
    (mulf (broadcastInDim S100000x128 ![] bcast_S_S100000x128 (constant S_ .f32 0x3C23D70A#32)) y)

/-- lrelu on a [100000, 64] array. -/
def lrelu64 (y : FVec F S100000x64 .f32) : FVec F S100000x64 .f32 :=
  select (cmpf .oge y (broadcastInDim S100000x64 ![] bcast_S_S100000x64 (constant S_ .f32 0x00000000#32))) y
    (mulf (broadcastInDim S100000x64 ![] bcast_S_S100000x64 (constant S_ .f32 0x3C23D70A#32)) y)

/-- The first encoder layer: lrelu (x · W + b), the bias added to every row. -/
def enc1 (x : FVec F S100000x512 .f32) (W : FVec F S512x128 .f32) (b : FVec F S128 .f32) : FVec F S100000x128 .f32 :=
  lrelu128 (addf (Host.dotGeneral dot_S100000x512_S512x128_S100000x128_1_0_0_1_n_n none x W)
    (broadcastInDim S100000x128 ![0, 1] bcast_S1x128_S100000x128_0_1 (broadcastInDim S1x128 ![1] bcast_S128_S1x128_1 b)))

/-- The second encoder layer: lrelu (h · W + b). -/
def enc2 (h : FVec F S100000x128 .f32) (W : FVec F S128x64 .f32) (b : FVec F S64 .f32) : FVec F S100000x64 .f32 :=
  lrelu64 (addf (Host.dotGeneral dot_S100000x128_S128x64_S100000x64_1_0_0_1_n_n none h W)
    (broadcastInDim S100000x64 ![0, 1] bcast_S1x64_S100000x64_0_1 (broadcastInDim S1x64 ![1] bcast_S64_S1x64_1 b)))

/-- A convolution's per-node linear map: h · W. -/
def nodeMap (h : FVec F S100000x64 .f32) (W : FVec F S64x64 .f32) : FVec F S100000x64 .f32 :=
  Host.dotGeneral dot_S100000x64_S64x64_S100000x64_1_0_0_1_n_n none h W

/-- A convolution's last step: lrelu (agg + hw · d2 + b), the node factor d2 along every row, the bias along
    every column. -/
def combine (agg hw : FVec F S100000x64 .f32) (d2 : FVec F S100000 .f32) (b : FVec F S64 .f32) : FVec F S100000x64 .f32 :=
  lrelu64 (addf (addf agg (mulf hw
      (broadcastInDim S100000x64 ![0, 1] bcast_S100000x1_S100000x64_0_1 (broadcastInDim S100000x1 ![0] bcast_S100000_S100000x1_0 d2))))
    (broadcastInDim S100000x64 ![0, 1] bcast_S1x64_S100000x64_0_1 (broadcastInDim S1x64 ![1] bcast_S64_S1x64_1 b)))

/-- The classifier: h · W + b, no activation. -/
def classify (h : FVec F S100000x64 .f32) (W : FVec F S64x2 .f32) (b : FVec F S2 .f32) : FVec F S100000x2 .f32 :=
  addf (Host.dotGeneral dot_S100000x64_S64x2_S100000x2_1_0_0_1_n_n none h W)
    (broadcastInDim S100000x2 ![0, 1] bcast_S1x2_S100000x2_0_1 (broadcastInDim S1x2 ![1] bcast_S2_S1x2_1 b))

/-! ## The network -/

/-- One graph convolution with its activation, from the edge list. -/
def conv (e : (⟨S2x1200000, .i32⟩ : BufTy).Contents (Elt F)) (h : FVec F S100000x64 .f32) (W : FVec F S64x64 .f32)
    (b : FVec F S64 .f32) : FVec F S100000x64 .f32 :=
  combine (aggregate (srcOf e) (dstOf e) (coefOf (srcOf e) (dstOf e) (dinvOf (dstOf e))) (nodeMap h W)) (nodeMap h W)
    (mulf (dinvOf (dstOf e)) (dinvOf (dstOf e))) b

/-- The node embedding the network returns second: two encoder layers, two convolutions. -/
def embed (x : FVec F S100000x512 .f32) (W1 : FVec F S512x128 .f32) (b1 : FVec F S128 .f32) (W2 : FVec F S128x64 .f32)
    (b2 : FVec F S64 .f32) (Wg1 : FVec F S64x64 .f32) (bg1 : FVec F S64 .f32) (Wg2 : FVec F S64x64 .f32) (bg2 : FVec F S64 .f32)
    (e : (⟨S2x1200000, .i32⟩ : BufTy).Contents (Elt F)) : FVec F S100000x64 .f32 :=
  conv e (conv e (enc2 (enc1 x W1 b1) W2 b2) Wg1 bg1) Wg2 bg2

end Cert.Spec

end
-- ==== Proof.ChainHost.lean ====
/-
  The kernel program's host stretches, read one boundary at a time.

  Between its seven pallas_calls the kernel program runs five stretches of host operations. The buffer contents
  at the twelve boundaries are the fold `W0 … W12` of the frame proof: `W1, W3, W6, W9, W11` are a host stretch
  applied to the boundary before; `W2, W4, W5, W7, W8, W10, W12` are a pallas_call's arrays put back. This
  module reads what the stretches compute, each from the boundary it starts at:
    stretch 0 (before the first call): the edge list's two rows, the normalization deg^(-1/2), its square, the
      edge weights, and the first bias as a row;
    stretches 1 and 6: a bias as a row;
    stretches 3 and 5: the neighbourhood sum of the node map just computed, the squared normalization as a
      column, a bias as a row;
  and that a buffer no operation of a stretch writes, and no pallas_call has as one of its arrays, goes through
  unchanged.
-/
import proofs.«156511_j87832081203316_1_alg».proof.Proof.Gen.KernelIdeal.Frame
import proofs.«156511_j87832081203316_1_alg».proof.Proof.Spec
import Idealize.ShloMosaic.Lib.StableHlo.Run
import Idealize.ShloMosaic.PureOps.Ideal

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The launched contents of a buffer of core `c`. -/
abbrev arg (b : Ref sig .tc) : Buf (Elt Ideal) ((c : Thread nD τ).loc b) := m ((c : Thread nD τ).loc b)

/-- The source node of every edge: row 0 of the launched edge list. -/
abbrev src := Cert.Spec.srcOf (F := Ideal) (arg m c main_arg11)
/-- The destination node of every edge: row 1 of the launched edge list. -/
abbrev dst := Cert.Spec.dstOf (F := Ideal) (arg m c main_arg11)
/-- deg^(-1/2) of the launched graph. -/
abbrev dinv := Cert.Spec.dinvOf (F := Ideal) (dst m c)
/-- The edge weights of the launched graph. -/
abbrev coef := Cert.Spec.coefOf (F := Ideal) (src m c) (dst m c) (dinv m c)

/-- Reads a buffer after a host stretch: every operation's result at its own buffer is its function of its
    operands' contents, and at any other buffer what was there. -/
macro "host_read" : tactic =>
  `(tactic| (dsimp only [W1, W3, W6, W9, W11, hostOps0, hostOps1, hostOps3, hostOps5, hostOps6]; after_results_simp))

/-! ## Stretch 0: from the launch memory -/

theorem W1_arg0 : W1 m ρ c (Proc.devRef .tc main_arg0) = arg m c main_arg0 := by host_read <;> rfl
theorem W1_arg1 : W1 m ρ c (Proc.devRef .tc main_arg1) = arg m c main_arg1 := by host_read <;> rfl
theorem W1_arg3 : W1 m ρ c (Proc.devRef .tc main_arg3) = arg m c main_arg3 := by host_read <;> rfl
theorem W1_arg4 : W1 m ρ c (Proc.devRef .tc main_arg4) = arg m c main_arg4 := by host_read <;> rfl
theorem W1_arg5 : W1 m ρ c (Proc.devRef .tc main_arg5) = arg m c main_arg5 := by host_read <;> rfl
theorem W1_arg6 : W1 m ρ c (Proc.devRef .tc main_arg6) = arg m c main_arg6 := by host_read <;> rfl
theorem W1_arg7 : W1 m ρ c (Proc.devRef .tc main_arg7) = arg m c main_arg7 := by host_read <;> rfl
theorem W1_arg8 : W1 m ρ c (Proc.devRef .tc main_arg8) = arg m c main_arg8 := by host_read <;> rfl
theorem W1_arg9 : W1 m ρ c (Proc.devRef .tc main_arg9) = arg m c main_arg9 := by host_read <;> rfl
theorem W1_arg10 : W1 m ρ c (Proc.devRef .tc main_arg10) = arg m c main_arg10 := by host_read <;> rfl

/-- The first bias, as the row the first dense kernel takes. -/
theorem W1_v27 : W1 m ρ c (Proc.devRef .tc main_v27) = shapeCast _ (arg m c main_arg2) shapeCasts_S128_S1x128 := by
  host_read <;> rfl
theorem W1_v1 : W1 m ρ c (Proc.devRef .tc main_v1) = src m c := by host_read <;> rfl
theorem W1_v3 : W1 m ρ c (Proc.devRef .tc main_v3) = dst m c := by host_read <;> rfl
/-- The squared normalization: the self loop's weight. -/
theorem W1_v11 : W1 m ρ c (Proc.devRef .tc main_v11) = mulf (dinv m c) (dinv m c) := by host_read <;> rfl
theorem W1_v26 : W1 m ρ c (Proc.devRef .tc main_v26) = coef m c := by host_read <;> rfl

/-! ## A buffer that a host stretch does not write goes through it -/

/-- Stretch 1 writes the second bias row only. -/
theorem keep3 (b : Ref sig .tc) (h : b ∉ ([main_v29] : List (Ref sig .tc))) :
    W3 m ρ c (Proc.devRef .tc b) = W2 m ρ c (Proc.devRef .tc b) := by
  refine StableHlo.after_of_forall_not_mem (b := Proc.devRef .tc b) _ _ (List.forall_iff_forall_mem.mp ?_)
  simp only [hostOps1, List.Forall, StableHlo.nullary_writes, StableHlo.unary_writes, StableHlo.binary_writes,
    StableHlo.ternary_writes, StableHlo.reshape_writes, Finset.mem_singleton]
  repeat' apply And.intro
  all_goals (apply StableHlo.devRef_ne_of_ne; rintro rfl; exact h (by decide))

/-- Stretch 3 writes its own eighteen results only. -/
theorem keep6 (b : Ref sig .tc) (h : b ∉ ([main_c_5, main_v32, main_v33, main_c_6, main_v34, main_v35, main_v36, main_v37,
      main_v38, main_v39, main_v40, main_v41, main_cst_7, main_v42, main_v43, main_v44, main_v45, main_v46] : List (Ref sig .tc))) :
    W6 m ρ c (Proc.devRef .tc b) = W5 m ρ c (Proc.devRef .tc b) := by
  refine StableHlo.after_of_forall_not_mem (b := Proc.devRef .tc b) _ _ (List.forall_iff_forall_mem.mp ?_)
  simp only [hostOps3, List.Forall, StableHlo.nullary_writes, StableHlo.unary_writes, StableHlo.binary_writes,
    StableHlo.ternary_writes, StableHlo.reshape_writes, Finset.mem_singleton]
  repeat' apply And.intro
  all_goals (apply StableHlo.devRef_ne_of_ne; rintro rfl; exact h (by decide))

/-- Stretch 5 writes its own eighteen results only. -/
theorem keep9 (b : Ref sig .tc) (h : b ∉ ([main_c_8, main_v49, main_v50, main_c_9, main_v51, main_v52, main_v53, main_v54,
      main_v55, main_v56, main_v57, main_v58, main_cst_10, main_v59, main_v60, main_v61, main_v62, main_v63] : List (Ref sig .tc))) :
    W9 m ρ c (Proc.devRef .tc b) = W8 m ρ c (Proc.devRef .tc b) := by
  refine StableHlo.after_of_forall_not_mem (b := Proc.devRef .tc b) _ _ (List.forall_iff_forall_mem.mp ?_)
  simp only [hostOps5, List.Forall, StableHlo.nullary_writes, StableHlo.unary_writes, StableHlo.binary_writes,
    StableHlo.ternary_writes, StableHlo.reshape_writes, Finset.mem_singleton]
  repeat' apply And.intro
  all_goals (apply StableHlo.devRef_ne_of_ne; rintro rfl; exact h (by decide))

/-- Stretch 6 writes the classifier's bias row only. -/
theorem keep11 (b : Ref sig .tc) (h : b ∉ ([main_v65] : List (Ref sig .tc))) :
    W11 m ρ c (Proc.devRef .tc b) = W10 m ρ c (Proc.devRef .tc b) := by
  refine StableHlo.after_of_forall_not_mem (b := Proc.devRef .tc b) _ _ (List.forall_iff_forall_mem.mp ?_)
  simp only [hostOps6, List.Forall, StableHlo.nullary_writes, StableHlo.unary_writes, StableHlo.binary_writes,
    StableHlo.ternary_writes, StableHlo.reshape_writes, Finset.mem_singleton]
  repeat' apply And.intro
  all_goals (apply StableHlo.devRef_ne_of_ne; rintro rfl; exact h (by decide))

/-! ## Stretches 1 and 6: a bias as a row -/

theorem W3_v29 : W3 m ρ c (Proc.devRef .tc main_v29) = shapeCast _ (W2 m ρ c (Proc.devRef .tc main_arg4)) shapeCasts_S64_S1x64 := by
  host_read <;> rfl
theorem W11_v65 : W11 m ρ c (Proc.devRef .tc main_v65) = shapeCast _ (W10 m ρ c (Proc.devRef .tc main_arg10)) shapeCasts_S2_S1x2 := by
  host_read <;> rfl

/-! ## Stretches 3 and 5: the neighbourhood sum, the node factor as a column, the bias as a row -/

theorem W6_v44 : W6 m ρ c (Proc.devRef .tc main_v44) = Cert.Spec.aggregate (F := Ideal) (W5 m ρ c (Proc.devRef .tc main_v1))
    (W5 m ρ c (Proc.devRef .tc main_v3)) (W5 m ρ c (Proc.devRef .tc main_v26)) (W5 m ρ c (Proc.devRef .tc main_v31)) := by
  host_read <;> rfl
theorem W6_v45 : W6 m ρ c (Proc.devRef .tc main_v45) = shapeCast _ (W5 m ρ c (Proc.devRef .tc main_v11)) shapeCasts_S100000_S100000x1 := by
  host_read <;> rfl
theorem W6_v46 : W6 m ρ c (Proc.devRef .tc main_v46) = shapeCast _ (W5 m ρ c (Proc.devRef .tc main_arg6)) shapeCasts_S64_S1x64 := by
  host_read <;> rfl

theorem W9_v61 : W9 m ρ c (Proc.devRef .tc main_v61) = Cert.Spec.aggregate (F := Ideal) (W8 m ρ c (Proc.devRef .tc main_v1))
    (W8 m ρ c (Proc.devRef .tc main_v3)) (W8 m ρ c (Proc.devRef .tc main_v26)) (W8 m ρ c (Proc.devRef .tc main_v48)) := by
  host_read <;> rfl
theorem W9_v62 : W9 m ρ c (Proc.devRef .tc main_v62) = shapeCast _ (W8 m ρ c (Proc.devRef .tc main_v11)) shapeCasts_S100000_S100000x1 := by
  host_read <;> rfl
theorem W9_v63 : W9 m ρ c (Proc.devRef .tc main_v63) = shapeCast _ (W8 m ρ c (Proc.devRef .tc main_arg8)) shapeCasts_S64_S1x64 := by
  host_read <;> rfl

end Cert.KernelIdeal.Chain

end
-- ==== Proof.ChainFinal.lean ====
/-
  The walk through the kernel program: what its two result buffers hold at the end.

  The program alternates host stretches and pallas_calls. A pallas_call replaces its output array by a
  whole-array function of its input arrays (the seven statements gathered in `Regions`, proved region by
  region elsewhere) and leaves every other buffer alone; a host stretch writes its own results and leaves every
  other buffer alone. Walking the twelve boundaries from the launch memory, each intermediate array is named:
    h1 = enc1 x W1 b1,  h2 = enc2 h1 W2 b2,
    hw1 = h2 · Wg1,  h3 = combine (aggregate … hw1) hw1 dinv² bg1,
    hw2 = h3 · Wg2,  h4 = combine (aggregate … hw2) hw2 dinv² bg2,
    logits = classify h4 Wc bc,
  with the edge list's rows, dinv and the edge weights computed once, before the first call, and carried
  unchanged to the two stretches that use them. At the last boundary the logits buffer holds `logits` and the
  embedding buffer holds `h4`, which is the network's embedding of the launched arguments.
-/
import proofs.«156511_j87832081203316_1_alg».proof.Proof.ChainHost

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- What each pallas_call leaves in its output array, as a function of its input arrays as it finds them
    (`V`): the two dense layers, the node map (twice), the convolution's last step (twice), the classifier.
    A bias reaches its kernel as a row, the node factor as a column: the host reshapes of the vectors. -/
structure Regions : Prop where
  r0 : ∀ (V : (c : Dev nD) → (b : Ref sig .tc) → Buf (Elt Ideal) ((c : Thread nD τ).loc b)) (c : Dev nD)
      (x : FVec Ideal S100000x512 .f32) (W : FVec Ideal S512x128 .f32) (b : FVec Ideal S128 .f32),
      V c main_arg0 = x → V c main_arg1 = W → V c main_v27 = shapeCast _ b shapeCasts_S128_S1x128 →
      (dat0 (F := Ideal) V c).arrAt 3 cfg0.N = Cert.Spec.enc1 x W b
  r1 : ∀ (V : (c : Dev nD) → (b : Ref sig .tc) → Buf (Elt Ideal) ((c : Thread nD τ).loc b)) (c : Dev nD)
      (h : FVec Ideal S100000x128 .f32) (W : FVec Ideal S128x64 .f32) (b : FVec Ideal S64 .f32),
      V c main_v28 = h → V c main_arg3 = W → V c main_v29 = shapeCast _ b shapeCasts_S64_S1x64 →
      (dat1 (F := Ideal) V c).arrAt 3 cfg1.N = Cert.Spec.enc2 h W b
  r2 : ∀ (V : (c : Dev nD) → (b : Ref sig .tc) → Buf (Elt Ideal) ((c : Thread nD τ).loc b)) (c : Dev nD)
      (h : FVec Ideal S100000x64 .f32) (W : FVec Ideal S64x64 .f32),
      V c main_v30 = h → V c main_arg5 = W →
      (dat2 (F := Ideal) V c).arrAt 2 cfg2.N = Cert.Spec.nodeMap h W
  r3 : ∀ (V : (c : Dev nD) → (b : Ref sig .tc) → Buf (Elt Ideal) ((c : Thread nD τ).loc b)) (c : Dev nD)
      (agg hw : FVec Ideal S100000x64 .f32) (d2 : FVec Ideal S100000 .f32) (b : FVec Ideal S64 .f32),
      V c main_v44 = agg → V c main_v31 = hw → V c main_v45 = shapeCast _ d2 shapeCasts_S100000_S100000x1 →
      V c main_v46 = shapeCast _ b shapeCasts_S64_S1x64 →
      (dat3 (F := Ideal) V c).arrAt 4 cfg3.N = Cert.Spec.combine agg hw d2 b
  r4 : ∀ (V : (c : Dev nD) → (b : Ref sig .tc) → Buf (Elt Ideal) ((c : Thread nD τ).loc b)) (c : Dev nD)
      (h : FVec Ideal S100000x64 .f32) (W : FVec Ideal S64x64 .f32),
      V c main_v47 = h → V c main_arg7 = W →
      (dat4 (F := Ideal) V c).arrAt 2 cfg4.N = Cert.Spec.nodeMap h W
  r5 : ∀ (V : (c : Dev nD) → (b : Ref sig .tc) → Buf (Elt Ideal) ((c : Thread nD τ).loc b)) (c : Dev nD)
      (agg hw : FVec Ideal S100000x64 .f32) (d2 : FVec Ideal S100000 .f32) (b : FVec Ideal S64 .f32),
      V c main_v61 = agg → V c main_v48 = hw → V c main_v62 = shapeCast _ d2 shapeCasts_S100000_S100000x1 →
      V c main_v63 = shapeCast _ b shapeCasts_S64_S1x64 →
      (dat5 (F := Ideal) V c).arrAt 4 cfg5.N = Cert.Spec.combine agg hw d2 b
  r6 : ∀ (V : (c : Dev nD) → (b : Ref sig .tc) → Buf (Elt Ideal) ((c : Thread nD τ).loc b)) (c : Dev nD)
      (h : FVec Ideal S100000x64 .f32) (W : FVec Ideal S64x2 .f32) (b : FVec Ideal S2 .f32),
      V c main_v64 = h → V c main_arg9 = W → V c main_v65 = shapeCast _ b shapeCasts_S2_S1x2 →
      (dat6 (F := Ideal) V c).arrAt 3 cfg6.N = Cert.Spec.classify h W b

variable (m : (ℓ : Loc nD τ sig) → Buf (Elt Ideal) ℓ) (ρ : Dev nD → PrngReg) (c : Dev nD)

/-! ## The intermediate arrays, named -/

abbrev h1 : FVec Ideal S100000x128 .f32 := Cert.Spec.enc1 (F := Ideal) (arg m c main_arg0) (arg m c main_arg1) (arg m c main_arg2)
abbrev h2 : FVec Ideal S100000x64 .f32 := Cert.Spec.enc2 (F := Ideal) (h1 m c) (arg m c main_arg3) (arg m c main_arg4)
abbrev hw1 : FVec Ideal S100000x64 .f32 := Cert.Spec.nodeMap (F := Ideal) (h2 m c) (arg m c main_arg5)
abbrev h3 : FVec Ideal S100000x64 .f32 :=
  Cert.Spec.combine (F := Ideal) (Cert.Spec.aggregate (src m c) (dst m c) (coef m c) (hw1 m c)) (hw1 m c) (mulf (dinv m c) (dinv m c)) (arg m c main_arg6)
abbrev hw2 : FVec Ideal S100000x64 .f32 := Cert.Spec.nodeMap (F := Ideal) (h3 m c) (arg m c main_arg7)
abbrev h4 : FVec Ideal S100000x64 .f32 :=
  Cert.Spec.combine (F := Ideal) (Cert.Spec.aggregate (src m c) (dst m c) (coef m c) (hw2 m c)) (hw2 m c) (mulf (dinv m c) (dinv m c)) (arg m c main_arg8)

/-! ## Buffers carried from the first boundary -/

/-- A buffer that is an array of none of the first three calls and is not the second bias row reaches the
    fifth boundary as the first stretch left it. -/
theorem to5 (b : Ref sig .tc) (h0 : ∀ w, Pipeline.arrRef spec0 w ≠ b) (h1 : b ∉ ([main_v29] : List (Ref sig .tc)))
    (h2 : ∀ w, Pipeline.arrRef spec1 w ≠ b) (h3 : ∀ w, Pipeline.arrRef spec2 w ≠ b) :
    W5 m ρ c (Proc.devRef .tc b) = W1 m ρ c (Proc.devRef .tc b) :=
  (W5_of_ne m ρ c b h3).trans ((W4_of_ne m ρ c b h2).trans ((keep3 m ρ c b h1).trans (W2_of_ne m ρ c b h0)))

/-- … and, not written by the third stretch and an array of neither the fourth nor the fifth call, the
    eighth boundary as it was at the fifth. -/
theorem to8 (b : Ref sig .tc) (h6 : b ∉ ([main_c_5, main_v32, main_v33, main_c_6, main_v34, main_v35, main_v36, main_v37,
      main_v38, main_v39, main_v40, main_v41, main_cst_7, main_v42, main_v43, main_v44, main_v45, main_v46] : List (Ref sig .tc)))
    (h7 : ∀ w, Pipeline.arrRef spec3 w ≠ b) (h8 : ∀ w, Pipeline.arrRef spec4 w ≠ b) :
    W8 m ρ c (Proc.devRef .tc b) = W5 m ρ c (Proc.devRef .tc b) :=
  (W8_of_ne m ρ c b h8).trans ((W7_of_ne m ρ c b h7).trans (keep6 m ρ c b h6))

/-- … and, not written by the fifth stretch and no array of the sixth call, the tenth as at the eighth. -/
theorem to10 (b : Ref sig .tc) (h9 : b ∉ ([main_c_8, main_v49, main_v50, main_c_9, main_v51, main_v52, main_v53, main_v54,
      main_v55, main_v56, main_v57, main_v58, main_cst_10, main_v59, main_v60, main_v61, main_v62, main_v63] : List (Ref sig .tc)))
    (h10 : ∀ w, Pipeline.arrRef spec5 w ≠ b) :
    W10 m ρ c (Proc.devRef .tc b) = W8 m ρ c (Proc.devRef .tc b) :=
  (W10_of_ne m ρ c b h10).trans (keep9 m ρ c b h9)

/-! ## The encoder -/

theorem W2_v28 (hR : Regions) : W2 m ρ c (Proc.devRef .tc main_v28) = h1 m c :=
  (W2_arr m ρ c 3).trans (hR.r0 (V1 m ρ) c _ _ _ (W1_arg0 m ρ c) (W1_arg1 m ρ c) (W1_v27 m ρ c))

theorem W3_v28 (hR : Regions) : W3 m ρ c (Proc.devRef .tc main_v28) = h1 m c :=
  (keep3 m ρ c main_v28 (by decide)).trans (W2_v28 m ρ c hR)
theorem W3_arg3 : W3 m ρ c (Proc.devRef .tc main_arg3) = arg m c main_arg3 :=
  (keep3 m ρ c main_arg3 (by decide)).trans ((W2_of_ne m ρ c main_arg3 (by decide)).trans (W1_arg3 m ρ c))
theorem W3_v29' : W3 m ρ c (Proc.devRef .tc main_v29) = shapeCast _ (arg m c main_arg4) shapeCasts_S64_S1x64 := by
  rw [W3_v29, W2_of_ne m ρ c main_arg4 (by decide), W1_arg4]

theorem W4_v30 (hR : Regions) : W4 m ρ c (Proc.devRef .tc main_v30) = h2 m c :=
  (W4_arr m ρ c 3).trans (hR.r1 (V3 m ρ) c _ _ _ (W3_v28 m ρ c hR) (W3_arg3 m ρ c) (W3_v29' m ρ c))

/-! ## The first convolution -/

theorem W4_arg5 : W4 m ρ c (Proc.devRef .tc main_arg5) = arg m c main_arg5 :=
  (W4_of_ne m ρ c main_arg5 (by decide)).trans ((keep3 m ρ c main_arg5 (by decide)).trans
    ((W2_of_ne m ρ c main_arg5 (by decide)).trans (W1_arg5 m ρ c)))

theorem W5_v31 (hR : Regions) : W5 m ρ c (Proc.devRef .tc main_v31) = hw1 m c :=
  (W5_arr m ρ c 2).trans (hR.r2 (V4 m ρ) c _ _ (W4_v30 m ρ c hR) (W4_arg5 m ρ c))

theorem W5_v1 : W5 m ρ c (Proc.devRef .tc main_v1) = src m c :=
  (to5 m ρ c main_v1 (by decide) (by decide) (by decide) (by decide)).trans (W1_v1 m ρ c)
theorem W5_v3 : W5 m ρ c (Proc.devRef .tc main_v3) = dst m c :=
  (to5 m ρ c main_v3 (by decide) (by decide) (by decide) (by decide)).trans (W1_v3 m ρ c)
theorem W5_v11 : W5 m ρ c (Proc.devRef .tc main_v11) = mulf (dinv m c) (dinv m c) :=
  (to5 m ρ c main_v11 (by decide) (by decide) (by decide) (by decide)).trans (W1_v11 m ρ c)
theorem W5_v26 : W5 m ρ c (Proc.devRef .tc main_v26) = coef m c :=
  (to5 m ρ c main_v26 (by decide) (by decide) (by decide) (by decide)).trans (W1_v26 m ρ c)
theorem W5_arg6 : W5 m ρ c (Proc.devRef .tc main_arg6) = arg m c main_arg6 :=
  (to5 m ρ c main_arg6 (by decide) (by decide) (by decide) (by decide)).trans (W1_arg6 m ρ c)

theorem W6_v44' (hR : Regions) : W6 m ρ c (Proc.devRef .tc main_v44) = Cert.Spec.aggregate (F := Ideal) (src m c) (dst m c) (coef m c) (hw1 m c) := by
  rw [W6_v44, W5_v1, W5_v3, W5_v26, W5_v31 m ρ c hR]
theorem W6_v31 (hR : Regions) : W6 m ρ c (Proc.devRef .tc main_v31) = hw1 m c :=
  (keep6 m ρ c main_v31 (by decide)).trans (W5_v31 m ρ c hR)
theorem W6_v45' : W6 m ρ c (Proc.devRef .tc main_v45) = shapeCast _ (mulf (dinv m c) (dinv m c)) shapeCasts_S100000_S100000x1 := by
  rw [W6_v45, W5_v11]
theorem W6_v46' : W6 m ρ c (Proc.devRef .tc main_v46) = shapeCast _ (arg m c main_arg6) shapeCasts_S64_S1x64 := by
  rw [W6_v46, W5_arg6]

theorem W7_v47 (hR : Regions) : W7 m ρ c (Proc.devRef .tc main_v47) = h3 m c :=
  (W7_arr m ρ c 4).trans (hR.r3 (V6 m ρ) c _ _ _ _ (W6_v44' m ρ c hR) (W6_v31 m ρ c hR) (W6_v45' m ρ c) (W6_v46' m ρ c))

/-! ## The second convolution -/

theorem W7_arg7 : W7 m ρ c (Proc.devRef .tc main_arg7) = arg m c main_arg7 :=
  (W7_of_ne m ρ c main_arg7 (by decide)).trans ((keep6 m ρ c main_arg7 (by decide)).trans
    ((to5 m ρ c main_arg7 (by decide) (by decide) (by decide) (by decide)).trans (W1_arg7 m ρ c)))

theorem W8_v48 (hR : Regions) : W8 m ρ c (Proc.devRef .tc main_v48) = hw2 m c :=
  (W8_arr m ρ c 2).trans (hR.r4 (V7 m ρ) c _ _ (W7_v47 m ρ c hR) (W7_arg7 m ρ c))

theorem W8_v1 : W8 m ρ c (Proc.devRef .tc main_v1) = src m c :=
  (to8 m ρ c main_v1 (by decide) (by decide) (by decide)).trans (W5_v1 m ρ c)
theorem W8_v3 : W8 m ρ c (Proc.devRef .tc main_v3) = dst m c :=
  (to8 m ρ c main_v3 (by decide) (by decide) (by decide)).trans (W5_v3 m ρ c)
theorem W8_v11 : W8 m ρ c (Proc.devRef .tc main_v11) = mulf (dinv m c) (dinv m c) :=
  (to8 m ρ c main_v11 (by decide) (by decide) (by decide)).trans (W5_v11 m ρ c)
theorem W8_v26 : W8 m ρ c (Proc.devRef .tc main_v26) = coef m c :=
  (to8 m ρ c main_v26 (by decide) (by decide) (by decide)).trans (W5_v26 m ρ c)
theorem W8_arg8 : W8 m ρ c (Proc.devRef .tc main_arg8) = arg m c main_arg8 :=
  (to8 m ρ c main_arg8 (by decide) (by decide) (by decide)).trans
    ((to5 m ρ c main_arg8 (by decide) (by decide) (by decide) (by decide)).trans (W1_arg8 m ρ c))

theorem W9_v61' (hR : Regions) : W9 m ρ c (Proc.devRef .tc main_v61) = Cert.Spec.aggregate (F := Ideal) (src m c) (dst m c) (coef m c) (hw2 m c) := by
  rw [W9_v61, W8_v1, W8_v3, W8_v26, W8_v48 m ρ c hR]
theorem W9_v48 (hR : Regions) : W9 m ρ c (Proc.devRef .tc main_v48) = hw2 m c :=
  (keep9 m ρ c main_v48 (by decide)).trans (W8_v48 m ρ c hR)
theorem W9_v62' : W9 m ρ c (Proc.devRef .tc main_v62) = shapeCast _ (mulf (dinv m c) (dinv m c)) shapeCasts_S100000_S100000x1 := by
  rw [W9_v62, W8_v11]
theorem W9_v63' : W9 m ρ c (Proc.devRef .tc main_v63) = shapeCast _ (arg m c main_arg8) shapeCasts_S64_S1x64 := by
  rw [W9_v63, W8_arg8]

theorem W10_v64 (hR : Regions) : W10 m ρ c (Proc.devRef .tc main_v64) = h4 m c :=
  (W10_arr m ρ c 4).trans (hR.r5 (V9 m ρ) c _ _ _ _ (W9_v61' m ρ c hR) (W9_v48 m ρ c hR) (W9_v62' m ρ c) (W9_v63' m ρ c))

/-! ## The classifier, and the two results -/

theorem W10_arg9 : W10 m ρ c (Proc.devRef .tc main_arg9) = arg m c main_arg9 :=
  (to10 m ρ c main_arg9 (by decide) (by decide)).trans ((to8 m ρ c main_arg9 (by decide) (by decide) (by decide)).trans
    ((to5 m ρ c main_arg9 (by decide) (by decide) (by decide) (by decide)).trans (W1_arg9 m ρ c)))
theorem W10_arg10 : W10 m ρ c (Proc.devRef .tc main_arg10) = arg m c main_arg10 :=
  (to10 m ρ c main_arg10 (by decide) (by decide)).trans ((to8 m ρ c main_arg10 (by decide) (by decide) (by decide)).trans
    ((to5 m ρ c main_arg10 (by decide) (by decide) (by decide) (by decide)).trans (W1_arg10 m ρ c)))

theorem W11_v64 (hR : Regions) : W11 m ρ c (Proc.devRef .tc main_v64) = h4 m c :=
  (keep11 m ρ c main_v64 (by decide)).trans (W10_v64 m ρ c hR)
theorem W11_arg9 : W11 m ρ c (Proc.devRef .tc main_arg9) = arg m c main_arg9 :=
  (keep11 m ρ c main_arg9 (by decide)).trans (W10_arg9 m ρ c)
theorem W11_v65' : W11 m ρ c (Proc.devRef .tc main_v65) = shapeCast _ (arg m c main_arg10) shapeCasts_S2_S1x2 := by
  rw [W11_v65, W10_arg10]

/-- The logits buffer at the last boundary: the classifier on the embedding. -/
theorem W12_v66 (hR : Regions) : W12 m ρ c (Proc.devRef .tc main_v66) = Cert.Spec.classify (F := Ideal) (h4 m c) (arg m c main_arg9) (arg m c main_arg10) :=
  (W12_arr m ρ c 3).trans (hR.r6 (V11 m ρ) c _ _ _ (W11_v64 m ρ c hR) (W11_arg9 m ρ c) (W11_v65' m ρ c))

/-- The embedding buffer at the last boundary: the last call reads it and leaves it as it was. -/
theorem W12_v64 (hR : Regions) : W12 m ρ c (Proc.devRef .tc main_v64) = h4 m c :=
  (W12_arr m ρ c 0).trans (((dat6 (V11 m ρ) c).arrAt_in 0 rfl _).trans ((A_eq6 (V11 m ρ) c 0).trans (W11_v64 m ρ c hR)))

/-- The walk's last array is the network's embedding of the launched arguments. -/
theorem h4_eq : h4 m c = Cert.Spec.embed (F := Ideal) (arg m c main_arg0) (arg m c main_arg1) (arg m c main_arg2) (arg m c main_arg3)
    (arg m c main_arg4) (arg m c main_arg5) (arg m c main_arg6) (arg m c main_arg7) (arg m c main_arg8) (arg m c main_arg11) := rfl

end Cert.KernelIdeal.Chain

end
-- ==== Proof.RefValue.lean ====
/-
  The reference program's two results are the network of Spec.lean.

  The reference's run ends with each result at the composed term of its host operations applied to the
  launched arguments. That term, read layer by layer, is the network: two dense layers under lrelu, two graph
  convolutions under lrelu (each recomputing the same normalization and edge weights from the edge list), and
  the classifier on top. Nothing is computed here: the two sides are the same operations in the same order, and
  the equality is by unfolding the layers' definitions.
-/
import proofs.«156511_j87832081203316_1_alg».proof.Proof.Gen.ReferenceIdeal.Run
import proofs.«156511_j87832081203316_1_alg».proof.Proof.Spec
import Idealize.ShloMosaic.PureOps.Ideal

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable (m : (ℓ : Loc nD τ sig) → Buf (Elt Ideal) ℓ) (c : Dev nD)

/-- The launched contents of a buffer of core `c`. -/
abbrev arg (b : Ref sig .tc) : Buf (Elt Ideal) ((c.tc : Thread nD τ).loc b) := m ((c.tc : Thread nD τ).loc b)

/-- The node embedding of the launched arguments. -/
abbrev embedOf : FVec Ideal S100000x64 .f32 :=
  Cert.Spec.embed (F := Ideal) (arg m c main_arg0) (arg m c main_arg1) (arg m c main_arg2) (arg m c main_arg3) (arg m c main_arg4)
    (arg m c main_arg5) (arg m c main_arg6) (arg m c main_arg7) (arg m c main_arg8) (arg m c main_arg11)

set_option maxHeartbeats 4000000 in
/-- The reference's second result is the node embedding. -/
theorem embed_eq : res_out1 (F := Ideal) m c = embedOf m c := by
  show res_main_v119 m c = _
  unfold res_main_v119
  rfl

set_option maxHeartbeats 4000000 in
/-- The reference's first result is the classifier on the node embedding. -/
theorem logits_eq : res_out0 (F := Ideal) m c = Cert.Spec.classify (F := Ideal) (embedOf m c) (arg m c main_arg9) (arg m c main_arg10) := by
  show res_main_v123 m c = _
  unfold res_main_v123
  rfl

end Cert.ReferenceIdeal.RefValue

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LibBiasRow.lean ====
/-
  One row added to every row of a matrix, read entry by entry, in the two spellings the host program uses:
  `broadcast_in_dim` of a row [1, b] along both axes of [a, b] reads, at (v, q), the row's entry (0, q); and
  `broadcast_in_dim` of a scalar (no axes) reads the scalar at every entry. With these, "add the row, then take the
  maximum with the scalar 0" is a formula per entry.
-/
import Idealize.ShloMosaic.Lib.ValueLayout
import Idealize.ShloMosaic.PureOps.Ideal.Laws

noncomputable section

namespace Cert.LibBiasRow

open Idealize.ShloMosaic Idealize.ShloMosaic.ValueIdx

/-- The two zero offsets of an access to a whole block, as a constant function. -/
theorem zero_offsets : (![0, 0] : Fin 2 → Nat) = fun _ => 0 := funext fun a => by fin_cases a <;> rfl

/-- A row [1, b] sent to [a, b] with its axes kept in place reads, at (v, q), the row at (0, q): the row's first axis
    has extent 1, so its coordinate is 0; its second axis carries q (and if b = 1 then q = 0 anyway). -/
theorem broadcastInDim_1b_ab_apply {α : Type} {a b : ℕ} (r : (⟨2, ![1, b]⟩ : Shape).Idx → α)
    (h : (⟨2, ![1, b]⟩ : Shape).BroadcastsInDim ⟨2, ![a, b]⟩ ![0, 1]) (v : Fin a) (q : Fin b) :
    broadcastInDim ⟨2, ![a, b]⟩ ![0, 1] h r (ix2 v q) = r (ix2 (0 : Fin 1) q) := by
  refine broadcastInDim_apply _ h r (ix2 v q) (ix2 (0 : Fin 1) q) fun ax => ?_
  match ax with
  | ⟨0, _⟩ => rfl
  | ⟨1, _⟩ =>
    show q.val = if b = 1 then 0 else q.val
    split
    · have := q.isLt; omega
    · rfl

/-- A scalar sent to any shape reads the scalar at every entry. -/
theorem broadcastInDim_scalar_apply {α : Type} {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The scalar zero of the host program, sent to any shape, is the number 0 at every entry. -/
theorem broadcastInDim_zero_apply {t : Shape} (h : (⟨0, ![]⟩ : Shape).BroadcastsInDim t ![]) (j : t.Idx) :
    broadcastInDim t ![] h (constant (F := Ideal) ⟨0, ![]⟩ .f32 0x00000000#32) j = (0 : EReal) := by
  rw [broadcastInDim_scalar_apply, constant_apply]
  exact Ideal.ofBits_zero_f32

end Cert.LibBiasRow

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«156511_j87832081203316_1_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«156511_j87832081203316_1_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.Leaky.lean ====
/-
  The leaky rectifier on one extended real: y where y ≥ 0, and 0.01 · y elsewhere, with 0 and 0.01 the two
  single-precision constants both programs hold. Both programs apply it entry by entry after a dense layer, so a
  layer's activation at an entry is this function of the layer's pre-activation at that entry.
-/
import Idealize.ShloMosaic.PureOps.Ideal
import Idealize.ShloMosaic.PureOps.Ideal.Laws

noncomputable section

namespace Cert.KernelIdeal.RegionValue

open Idealize.ShloMosaic

/-- y if y ≥ 0, else 0.01 · y. -/
def leaky (y : Ideal .f32) : Ideal .f32 :=
  Scalar.select (FloatOps.cmpf .oge y (FloatOps.ofBits .f32 0x00000000#32)) y
    (FloatOps.mulf (FloatOps.ofBits .f32 0x3C23D70A#32) y)

end Cert.KernelIdeal.RegionValue

end
-- ==== Proof.Encoder1.lean ====
/-
  Region 0 of the kernel program is the first encoder layer: its output array is lrelu (x · W + b).

  The region runs the dense-layer body (product, bias, leaky rectifier) over 25 row tiles of 4000 rows. At tile n the kernel body reads rows
  4000·n … 4000·n + 3999 of the input [100000, 512], the whole weight matrix [512, 128] and the bias as a row [1, 128],
  and writes rows 4000·n … 4000·n + 3999 of the output [100000, 128]. Entry (p, q) of what it writes is
    leaky (∑ k, block₀ (p, k) · W (k, q) + row (0, q)),
  which is entry (4000·n + p, q) of the layer as a function of the whole arrays,
    leaky (∑ k, x (r, k) · W (k, q) + b (q)).
  The 25 tiles cover every row (row r lies in tile r / 4000), so the output array ends holding the layer.
-/
import proofs.«156511_j87832081203316_1_alg».proof.Proof.Gen.KernelIdeal.Frame
import proofs.«156511_j87832081203316_1_alg».proof.Proof.Spec
import proofs.«156511_j87832081203316_1_alg».proof.Proof.LibPlainDot
import proofs.«156511_j87832081203316_1_alg».proof.Proof.LibBiasRow
import proofs.«156511_j87832081203316_1_alg».proof.Proof.LibRowVector
import proofs.«156511_j87832081203316_1_alg».proof.Proof.Leaky
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx

namespace Cert.KernelIdeal.RegionValue

variable (V : (c : Dev nD) → (b : Ref sig .tc) → Buf (Elt Ideal) ((c : Thread nD τ).loc b))

namespace Encoder1

/-! ## One entry of the layer, on each side -/

/-- Entry (r, q) of the layer as a function of the whole arrays: the host product is the sum over k, the bias vector
    sent to a row and the row to every row reads b(q), and the activation acts entry by entry. -/
theorem spec_entry (x : FVec Ideal S100000x512 .f32) (W : FVec Ideal S512x128 .f32) (b : FVec Ideal S128 .f32)
    (r : Fin 100000) (q : Fin 128) :
    Cert.Spec.enc1 x W b (ix2 r q) = leaky ((∑ k : Fin 512, x (ix2 r k) * W (ix2 k q)) + b (ix1 q)) := by
  have hd : Host.dotGeneral (F := Ideal) Cert.ReferenceIdeal.dot_S100000x512_S512x128_S100000x128_1_0_0_1_n_n none x W (ix2 r q)
      = ∑ k : Fin 512, x (ix2 r k) * W (ix2 k q) :=
    Cert.LibPlainDot.dotGeneral_apply none _ x W r q
  have hb : broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r q) = b (ix1 q) :=
    (Cert.LibBiasRow.broadcastInDim_1b_ab_apply _ _ r q).trans (Cert.LibRowVector.broadcastInDim_b_1b_apply b _ 0 q)
  show leaky (Host.dotGeneral (F := Ideal) Cert.ReferenceIdeal.dot_S100000x512_S512x128_S100000x128_1_0_0_1_n_n none x W (ix2 r q)
      + broadcastInDim Cert.ReferenceIdeal.S100000x128 ![0, 1] Cert.ReferenceIdeal.Gen.bcast_S1x128_S100000x128_0_1
        (broadcastInDim Cert.ReferenceIdeal.S1x128 ![1] Cert.ReferenceIdeal.Gen.bcast_S128_S1x128_1 b) (ix2 r q)) = _
  rw [hd, hb]

/-- Entry (p, q) of what the kernel body stores, from the three blocks it loads: the product into the zero
    accumulator is the sum over k (the narrowing of the operands is the identity on the extended reals), the bias row
    sent to every row of the tile reads its entry (0, q), and the activation acts entry by entry. -/
theorem body_entry (x0 : FVec Ideal S4000x512 .f32) (x1 : FVec Ideal S512x128 .f32) (x2 : FVec Ideal S1x128 .f32)
    (p : Fin 4000) (q : Fin 128) :
    k0_pay1 (F := Ideal) x0 x1 x2 (ix2 p q) = leaky ((∑ k : Fin 512, x0 (ix2 p k) * x1 (ix2 k q)) + x2 (ix2 (0 : Fin 1) q)) := by
  have hm : matmul (F := Ideal) dot_S4000x512_S512x128_S4000x128_1_0_0_1_n_n none
        (truncf .bf16 x0 bitsLt_bf16_f32) (truncf .bf16 x1 bitsLt_bf16_f32)
        (constant (F := Ideal) S4000x128 .f32 0x00000000#32) (ix2 p q) = ∑ k : Fin 512, x0 (ix2 p k) * x1 (ix2 k q) := by
    exact Cert.LibPlainDot.matmul_zero_apply none _ _ p q
  have hb : broadcastTo S4000x128 (shapeCast S1x128 x2 shapeCasts_S1x128_S1x128) broadcasts_S1x128_S4000x128 (ix2 p q)
      = x2 (ix2 (0 : Fin 1) q) := by
    rw [shapeCast_self]; exact broadcastTo_1b_ab_apply x2 _ p q
  show leaky (matmul (F := Ideal) dot_S4000x512_S512x128_S4000x128_1_0_0_1_n_n none
        (truncf .bf16 x0 bitsLt_bf16_f32) (truncf .bf16 x1 bitsLt_bf16_f32)
        (constant (F := Ideal) S4000x128 .f32 0x00000000#32) (ix2 p q)
      + broadcastTo S4000x128 (shapeCast S1x128 x2 shapeCasts_S1x128_S1x128) broadcasts_S1x128_S4000x128 (ix2 p q)) = _
  rw [hm, hb]

/-- The body's store at tile n, entry by entry, is the layer at the rows of tile n: whenever the first loaded block is
    rows 4000·n … of x, the second is W and the third is the bias vector as a row, entry y of the store is entry i of the
    layer, for i the index y moved down by 4000·n rows. -/
theorem tile_entry (x : FVec Ideal S100000x512 .f32) (W : FVec Ideal S512x128 .f32) (b : FVec Ideal S128 .f32)
    (x0 : FVec Ideal S4000x512 .f32) (x1 : FVec Ideal S512x128 .f32) (x2 : FVec Ideal S1x128 .f32) (n : Nat)
    (h0 : ∀ (y : S4000x512.Idx) (i : S100000x512.Idx), (i 0).val = n * 4000 + (y 0).val → (i 1).val = (y 1).val → x0 y = x i)
    (h1 : x1 = W) (h2 : x2 = shapeCast S1x128 b shapeCasts_S128_S1x128)
    (y : S4000x128.Idx) (i : S100000x128.Idx) (e0 : (i 0).val = n * 4000 + (y 0).val) (e1 : (i 1).val = (y 1).val) :
    k0_pay1 (F := Ideal) x0 x1 x2 y = Cert.Spec.enc1 x W b i := by
  obtain ⟨p, q, rfl⟩ : ∃ (p : Fin 4000) (q : Fin 128), y = ix2 p q := ⟨y 0, y 1, eq_ix2 y⟩
  obtain ⟨r, q', rfl⟩ : ∃ (r : Fin 100000) (q' : Fin 128), i = ix2 r q' := ⟨i 0, i 1, eq_ix2 i⟩
  have er : r.val = n * 4000 + p.val := e0
  obtain rfl : q = q' := (Fin.ext e1).symm
  subst h1 h2
  have hs : (∑ k : Fin 512, x0 (ix2 p k) * x1 (ix2 k q)) = ∑ k : Fin 512, x (ix2 r k) * x1 (ix2 k q) :=
    Finset.sum_congr rfl fun k _ => by rw [h0 (ix2 p k) (ix2 r k) er rfl]
  rw [body_entry, spec_entry, hs, shapeCast_a_1a_apply]

/-! ## From the tiles to the array -/

/-- The printed index maps, decided over the 25 grid points: the input's and the output's row tile is the point's
    number, their column block is 0, and the weights and the bias are block (0, 0) at every point. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is tile t of the layer of the arrays the region finds. -/
theorem flushed_eq (c : Dev nD) (x : FVec Ideal S100000x512 .f32) (W : FVec Ideal S512x128 .f32) (b : FVec Ideal S128 .f32)
    (hx : V c main_arg0 = x) (hW : V c main_arg1 = W) (hb : V c main_v27 = shapeCast _ b shapeCasts_S128_S1x128)
    (t : Fin cfg0.N) :
    (dat0 (F := Ideal) V c).flushed 3 t = ((cfg0.win 3).blk t).view.read (Elt Ideal) (Cert.Spec.enc1 x W b) := by
  show (cfg0.win 3).cut (grid0.coords t) ((dat0 V c).after 3 t) = _
  rw [after0_3]
  unfold out0_3
  rw [View.canon_unit_zero Cert.LibBiasRow.zero_offsets]
  simp only [View.ld_unit_zero (S := S4000x512) Cert.LibBiasRow.zero_offsets,
    View.ld_unit_zero (S := S512x128) Cert.LibBiasRow.zero_offsets,
    View.ld_unit_zero (S := S1x128) Cert.LibBiasRow.zero_offsets]
  obtain ⟨a0, a1, b0, b1, c0, c1, d0, d1⟩ := index_facts t
  funext j
  refine tile_entry x W b (iblk0 V c 0 t) (iblk0 V c 1 t) (iblk0 V c 2 t) t.val ?_ ?_ ?_
    ((win0 3).xinj (grid0.coords t) j) (((cfg0.win 3).blk t).view.emb j) ?_ ?_
  · intro y i e0 e1
    show V c main_arg0 (((cfg0.win 0).blk t).view.emb y) = x i
    rw [hx]
    refine congrArg x (funext fun a => Fin.ext ?_)
    match a with
    | ⟨0, _⟩ => show win0_0.index t (0 : Fin 2) * 4000 + 1 * (y 0).val = (i 0).val; omega
    | ⟨1, _⟩ => show win0_0.index t (1 : Fin 2) * 512 + 1 * (y 1).val = (i 1).val; omega
  · funext y
    show V c main_arg1 (((cfg0.win 1).blk t).view.emb y) = W y
    rw [hW]
    refine congrArg W (funext fun a => Fin.ext ?_)
    match a with
    | ⟨0, _⟩ => show win0_1.index t (0 : Fin 2) * 512 + 1 * (y 0).val = (y 0).val; omega
    | ⟨1, _⟩ => show win0_1.index t (1 : Fin 2) * 128 + 1 * (y 1).val = (y 1).val; omega
  · funext y
    show V c main_v27 (((cfg0.win 2).blk t).view.emb y) = shapeCast S1x128 b shapeCasts_S128_S1x128 y
    rw [hb]
    refine congrArg (shapeCast S1x128 b shapeCasts_S128_S1x128) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  · show win0_3.index t (0 : Fin 2) * 4000 + 1 * (j 0).val = t.val * 4000 + (j 0).val; omega
  · show win0_3.index t (1 : Fin 2) * 128 + 1 * (j 1).val = (j 1).val; omega

/-- An index of the output array is in point t's tile iff each coordinate is in the tile's range on its axis. -/
theorem mem_tile (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v28).slice (win0_3.rect t)).set ↔ _
  rw [View.set_slice_whole, Rect.mem_set_unit]
  exact Iff.rfl

/-- Every index of the output array is in the tile of a point that writes back: row r is in tile r / 4000. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, d0, d1⟩ := index_facts t
  refine ⟨t, flush0_3 t, ?_⟩
  rw [mem_tile]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 128 ≤ (i 1).val ∧ (i 1).val < win0_3.index t (1 : Fin 2) * 128 + 128
    omega

end Encoder1

/-- Region 0: the output array ends holding the layer of the input array, the weights and the bias vector, the bias
    having entered the region as the row [1, 128] the host made of the vector. -/
theorem region0 (c : Dev nD) (x : FVec Ideal S100000x512 .f32) (W : FVec Ideal S512x128 .f32) (b : FVec Ideal S128 .f32)
    (hx : V c main_arg0 = x) (hW : V c main_arg1 = W) (hb : V c main_v27 = shapeCast _ b shapeCasts_S128_S1x128) :
    (dat0 (F := Ideal) V c).arrAt 3 cfg0.N = Cert.Spec.enc1 x W b :=
  (dat0 (F := Ideal) V c).arrAt_eq_of_cover 3 (Cert.Spec.enc1 x W b)
    (fun t _ => Encoder1.flushed_eq V c x W b hx hW hb t) Encoder1.covered

end Cert.KernelIdeal.RegionValue

end
-- ==== Proof.Encoder2.lean ====
/-
  Region 1 of the kernel program is the second encoder layer: its output array is lrelu (h · W + b).

  The region runs the dense-layer body (product, bias, leaky rectifier) over 25 row tiles of 4000 rows. At tile n the kernel body reads rows
  4000·n … 4000·n + 3999 of the input [100000, 128], the whole weight matrix [128, 64] and the bias as a row [1, 64],
  and writes rows 4000·n … 4000·n + 3999 of the output [100000, 64]. Entry (p, q) of what it writes is
    leaky (∑ k, block₀ (p, k) · W (k, q) + row (0, q)),
  which is entry (4000·n + p, q) of the layer as a function of the whole arrays,
    leaky (∑ k, h (r, k) · W (k, q) + b (q)).
  The 25 tiles cover every row (row r lies in tile r / 4000), so the output array ends holding the layer.
-/
import proofs.«156511_j87832081203316_1_alg».proof.Proof.Gen.KernelIdeal.Frame
import proofs.«156511_j87832081203316_1_alg».proof.Proof.Spec
import proofs.«156511_j87832081203316_1_alg».proof.Proof.LibPlainDot
import proofs.«156511_j87832081203316_1_alg».proof.Proof.LibBiasRow
import proofs.«156511_j87832081203316_1_alg».proof.Proof.LibRowVector
import proofs.«156511_j87832081203316_1_alg».proof.Proof.Leaky
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx

namespace Cert.KernelIdeal.RegionValue

variable (V : (c : Dev nD) → (b : Ref sig .tc) → Buf (Elt Ideal) ((c : Thread nD τ).loc b))

namespace Encoder2

/-! ## One entry of the layer, on each side -/

/-- Entry (r, q) of the layer as a function of the whole arrays: the host product is the sum over k, the bias vector
    sent to a row and the row to every row reads b(q), and the activation acts entry by entry. -/
theorem spec_entry (x : FVec Ideal S100000x128 .f32) (W : FVec Ideal S128x64 .f32) (b : FVec Ideal S64 .f32)
    (r : Fin 100000) (q : Fin 64) :
    Cert.Spec.enc2 x W b (ix2 r q) = leaky ((∑ k : Fin 128, x (ix2 r k) * W (ix2 k q)) + b (ix1 q)) := by
  have hd : Host.dotGeneral (F := Ideal) Cert.ReferenceIdeal.dot_S100000x128_S128x64_S100000x64_1_0_0_1_n_n none x W (ix2 r q)
      = ∑ k : Fin 128, x (ix2 r k) * W (ix2 k q) :=
    Cert.LibPlainDot.dotGeneral_apply none _ x W r q
  have hb : broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) (ix2 r q) = b (ix1 q) :=
    (Cert.LibBiasRow.broadcastInDim_1b_ab_apply _ _ r q).trans (Cert.LibRowVector.broadcastInDim_b_1b_apply b _ 0 q)
  show leaky (Host.dotGeneral (F := Ideal) Cert.ReferenceIdeal.dot_S100000x128_S128x64_S100000x64_1_0_0_1_n_n none x W (ix2 r q)
      + broadcastInDim Cert.ReferenceIdeal.S100000x64 ![0, 1] Cert.ReferenceIdeal.Gen.bcast_S1x64_S100000x64_0_1
        (broadcastInDim Cert.ReferenceIdeal.S1x64 ![1] Cert.ReferenceIdeal.Gen.bcast_S64_S1x64_1 b) (ix2 r q)) = _
  rw [hd, hb]

/-- Entry (p, q) of what the kernel body stores, from the three blocks it loads: the product into the zero
    accumulator is the sum over k (the narrowing of the operands is the identity on the extended reals), the bias row
    sent to every row of the tile reads its entry (0, q), and the activation acts entry by entry. -/
theorem body_entry (x0 : FVec Ideal S4000x128 .f32) (x1 : FVec Ideal S128x64 .f32) (x2 : FVec Ideal S1x64 .f32)
    (p : Fin 4000) (q : Fin 64) :
    k1_pay1 (F := Ideal) x0 x1 x2 (ix2 p q) = leaky ((∑ k : Fin 128, x0 (ix2 p k) * x1 (ix2 k q)) + x2 (ix2 (0 : Fin 1) q)) := by
  have hm : matmul (F := Ideal) dot_S4000x128_S128x64_S4000x64_1_0_0_1_n_n none
        (truncf .bf16 (shapeCast S4000x128 x0 shapeCasts_S4000x128_S4000x128) bitsLt_bf16_f32) (truncf .bf16 x1 bitsLt_bf16_f32)
        (constant (F := Ideal) S4000x64 .f32 0x00000000#32) (ix2 p q) = ∑ k : Fin 128, x0 (ix2 p k) * x1 (ix2 k q) := by
    rw [shapeCast_self]; exact Cert.LibPlainDot.matmul_zero_apply none _ _ p q
  have hb : broadcastTo S4000x64 (shapeCast S1x64 x2 shapeCasts_S1x64_S1x64) broadcasts_S1x64_S4000x64 (ix2 p q)
      = x2 (ix2 (0 : Fin 1) q) := by
    rw [shapeCast_self]; exact broadcastTo_1b_ab_apply x2 _ p q
  show leaky (matmul (F := Ideal) dot_S4000x128_S128x64_S4000x64_1_0_0_1_n_n none
        (truncf .bf16 (shapeCast S4000x128 x0 shapeCasts_S4000x128_S4000x128) bitsLt_bf16_f32) (truncf .bf16 x1 bitsLt_bf16_f32)
        (constant (F := Ideal) S4000x64 .f32 0x00000000#32) (ix2 p q)
      + broadcastTo S4000x64 (shapeCast S1x64 x2 shapeCasts_S1x64_S1x64) broadcasts_S1x64_S4000x64 (ix2 p q)) = _
  rw [hm, hb]

/-- The body's store at tile n, entry by entry, is the layer at the rows of tile n: whenever the first loaded block is
    rows 4000·n … of x, the second is W and the third is the bias vector as a row, entry y of the store is entry i of the
    layer, for i the index y moved down by 4000·n rows. -/
theorem tile_entry (x : FVec Ideal S100000x128 .f32) (W : FVec Ideal S128x64 .f32) (b : FVec Ideal S64 .f32)
    (x0 : FVec Ideal S4000x128 .f32) (x1 : FVec Ideal S128x64 .f32) (x2 : FVec Ideal S1x64 .f32) (n : Nat)
    (h0 : ∀ (y : S4000x128.Idx) (i : S100000x128.Idx), (i 0).val = n * 4000 + (y 0).val → (i 1).val = (y 1).val → x0 y = x i)
    (h1 : x1 = W) (h2 : x2 = shapeCast S1x64 b shapeCasts_S64_S1x64)
    (y : S4000x64.Idx) (i : S100000x64.Idx) (e0 : (i 0).val = n * 4000 + (y 0).val) (e1 : (i 1).val = (y 1).val) :
    k1_pay1 (F := Ideal) x0 x1 x2 y = Cert.Spec.enc2 x W b i := by
  obtain ⟨p, q, rfl⟩ : ∃ (p : Fin 4000) (q : Fin 64), y = ix2 p q := ⟨y 0, y 1, eq_ix2 y⟩
  obtain ⟨r, q', rfl⟩ : ∃ (r : Fin 100000) (q' : Fin 64), i = ix2 r q' := ⟨i 0, i 1, eq_ix2 i⟩
  have er : r.val = n * 4000 + p.val := e0
  obtain rfl : q = q' := (Fin.ext e1).symm
  subst h1 h2
  have hs : (∑ k : Fin 128, x0 (ix2 p k) * x1 (ix2 k q)) = ∑ k : Fin 128, x (ix2 r k) * x1 (ix2 k q) :=
    Finset.sum_congr rfl fun k _ => by rw [h0 (ix2 p k) (ix2 r k) er rfl]
  rw [body_entry, spec_entry, hs, shapeCast_a_1a_apply]

/-! ## From the tiles to the array -/

/-- The printed index maps, decided over the 25 grid points: the input's and the output's row tile is the point's
    number, their column block is 0, and the weights and the bias are block (0, 0) at every point. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is tile t of the layer of the arrays the region finds. -/
theorem flushed_eq (c : Dev nD) (x : FVec Ideal S100000x128 .f32) (W : FVec Ideal S128x64 .f32) (b : FVec Ideal S64 .f32)
    (hx : V c main_v28 = x) (hW : V c main_arg3 = W) (hb : V c main_v29 = shapeCast _ b shapeCasts_S64_S1x64)
    (t : Fin cfg1.N) :
    (dat1 (F := Ideal) V c).flushed 3 t = ((cfg1.win 3).blk t).view.read (Elt Ideal) (Cert.Spec.enc2 x W b) := by
  show (cfg1.win 3).cut (grid1.coords t) ((dat1 V c).after 3 t) = _
  rw [after1_3]
  unfold out1_3
  rw [View.canon_unit_zero Cert.LibBiasRow.zero_offsets]
  simp only [View.ld_unit_zero (S := S4000x128) Cert.LibBiasRow.zero_offsets,
    View.ld_unit_zero (S := S128x64) Cert.LibBiasRow.zero_offsets,
    View.ld_unit_zero (S := S1x64) Cert.LibBiasRow.zero_offsets]
  obtain ⟨a0, a1, b0, b1, c0, c1, d0, d1⟩ := index_facts t
  funext j
  refine tile_entry x W b (iblk1 V c 0 t) (iblk1 V c 1 t) (iblk1 V c 2 t) t.val ?_ ?_ ?_
    ((win1 3).xinj (grid1.coords t) j) (((cfg1.win 3).blk t).view.emb j) ?_ ?_
  · intro y i e0 e1
    show V c main_v28 (((cfg1.win 0).blk t).view.emb y) = x i
    rw [hx]
    refine congrArg x (funext fun a => Fin.ext ?_)
    match a with
    | ⟨0, _⟩ => show win1_0.index t (0 : Fin 2) * 4000 + 1 * (y 0).val = (i 0).val; omega
    | ⟨1, _⟩ => show win1_0.index t (1 : Fin 2) * 128 + 1 * (y 1).val = (i 1).val; omega
  · funext y
    show V c main_arg3 (((cfg1.win 1).blk t).view.emb y) = W y
    rw [hW]
    refine congrArg W (funext fun a => Fin.ext ?_)
    match a with
    | ⟨0, _⟩ => show win1_1.index t (0 : Fin 2) * 128 + 1 * (y 0).val = (y 0).val; omega
    | ⟨1, _⟩ => show win1_1.index t (1 : Fin 2) * 64 + 1 * (y 1).val = (y 1).val; omega
  · funext y
    show V c main_v29 (((cfg1.win 2).blk t).view.emb y) = shapeCast S1x64 b shapeCasts_S64_S1x64 y
    rw [hb]
    refine congrArg (shapeCast S1x64 b shapeCasts_S64_S1x64) (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega
  · show win1_3.index t (0 : Fin 2) * 4000 + 1 * (j 0).val = t.val * 4000 + (j 0).val; omega
  · show win1_3.index t (1 : Fin 2) * 64 + 1 * (j 1).val = (j 1).val; omega

/-- An index of the output array is in point t's tile iff each coordinate is in the tile's range on its axis. -/
theorem mem_tile (t : Fin cfg1.N) (i : S100000x64.Idx) :
    i ∈ ((cfg1.win 3).blk t).view.set ↔ ∀ a : Fin 2, win1_3.index t a * S4000x64.size a ≤ (i a).val
      ∧ (i a).val < win1_3.index t a * S4000x64.size a + S4000x64.size a := by
  show i ∈ ((View.whole main_v30).slice (win1_3.rect t)).set ↔ _
  rw [View.set_slice_whole, Rect.mem_set_unit]
  exact Iff.rfl

/-- Every index of the output array is in the tile of a point that writes back: row r is in tile r / 4000. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, d0, d1⟩ := index_facts t
  refine ⟨t, flush1_3 t, ?_⟩
  rw [mem_tile]
  intro a
  match a with
  | ⟨0, _⟩ =>
    show win1_3.index t (0 : Fin 2) * 4000 ≤ (i 0).val ∧ (i 0).val < win1_3.index t (0 : Fin 2) * 4000 + 4000
    omega
  | ⟨1, _⟩ =>
    show win1_3.index t (1 : Fin 2) * 64 ≤ (i 1).val ∧ (i 1).val < win1_3.index t (1 : Fin 2) * 64 + 64
    omega

end Encoder2

/-- Region 1: the output array ends holding the layer of the input array, the weights and the bias vector, the bias
    having entered the region as the row [1, 64] the host made of the vector. -/
theorem region1 (c : Dev nD) (h : FVec Ideal S100000x128 .f32) (W : FVec Ideal S128x64 .f32) (b : FVec Ideal S64 .f32)
    (hh : V c main_v28 = h) (hW : V c main_arg3 = W) (hb : V c main_v29 = shapeCast _ b shapeCasts_S64_S1x64) :
    (dat1 (F := Ideal) V c).arrAt 3 cfg1.N = Cert.Spec.enc2 h W b :=
  (dat1 (F := Ideal) V c).arrAt_eq_of_cover 3 (Cert.Spec.enc2 h W b)
    (fun t _ => Encoder2.flushed_eq V c h W b hh hW hb t) Encoder2.covered

end Cert.KernelIdeal.RegionValue

end
-- ==== Proof.Classifier.lean ====
/-
  Region 6 of the kernel program is the classifier: its output array is h · W + b.

  The region runs the dense-layer body without activation (product, bias) over 25 row tiles of 4000 rows. At tile n the kernel body reads rows
  4000·n … 4000·n + 3999 of the input [100000, 64], the whole weight matrix [64, 2] and the bias as a row [1, 2],
  and writes rows 4000·n … 4000·n + 3999 of the output [100000, 2]. Entry (p, q) of what it writes is
    ∑ k, block₀ (p, k) · W (k, q) + row (0, q),
  which is entry (4000·n + p, q) of the layer as a function of the whole arrays,
    ∑ k, h (r, k) · W (k, q) + b (q).
  The 25 tiles cover every row (row r lies in tile r / 4000), so the output array ends holding the layer.
-/
import proofs.«156511_j87832081203316_1_alg».proof.Proof.Gen.KernelIdeal.Frame
import proofs.«156511_j87832081203316_1_alg».proof.Proof.Spec
import proofs.«156511_j87832081203316_1_alg».proof.Proof.LibPlainDot
import proofs.«156511_j87832081203316_1_alg».proof.Proof.LibBiasRow
import proofs.«156511_j87832081203316_1_alg».proof.Proof.LibRowVector
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx

namespace Cert.KernelIdeal.RegionValue

variable (V : (c : Dev nD) → (b : Ref sig .tc) → Buf (Elt Ideal) ((c : Thread nD τ).loc b))

namespace Classifier

/-! ## One entry of the layer, on each side -/

/-- Entry (r, q) of the layer as a function of the whole arrays: the host product is the sum over k, the bias vector
    sent to a row and the row to every row reads b(q). -/
theorem spec_entry (x : FVec Ideal S100000x64 .f32) (W : FVec Ideal S64x2 .f32) (b : FVec Ideal S2 .f32)
    (r : Fin 100000) (q : Fin 2) :
    Cert.Spec.classify x W b (ix2 r q) = (∑ k : Fin 64, x (ix2 r k) * W (ix2 k q)) + b (ix1 q) := by
  have hd : Host.dotGeneral (F := Ideal) Cert.ReferenceIdeal.dot_S100000x64_S64x2_S100000x2_1_0_0_1_n_n none x W (ix2 r q)
      = ∑ k : Fin 64, x (ix2 r k) * W (ix2 k q) :=
    Cert.LibPlainDot.dotGeneral_apply none _ x W r q
  have hb : broadcastInDim Cert.ReferenceIdeal.S100000x2 ![0, 1] Cert.ReferenceIdeal.Gen.bcast_S1x2_S100000x2_0_1
        (broadcastInDim Cert.ReferenceIdeal.S1x2 ![1] Cert.ReferenceIdeal.Gen.bcast_S2_S1x2_1 b) (ix2 r q) = b (ix1 q) :=
    (Cert.LibBiasRow.broadcastInDim_1b_ab_apply _ _ r q).trans (Cert.LibRowVector.broadcastInDim_b_1b_apply b _ 0 q)
  show Host.dotGeneral (F := Ideal) Cert.ReferenceIdeal.dot_S100000x64_S64x2_S100000x2_1_0_0_1_n_n none x W (ix2 r q)
      + broadcastInDim Cert.ReferenceIdeal.S100000x2 ![0, 1] Cert.ReferenceIdeal.Gen.bcast_S1x2_S100000x2_0_1
        (broadcastInDim Cert.ReferenceIdeal.S1x2 ![1] Cert.ReferenceIdeal.Gen.bcast_S2_S1x2_1 b) (ix2 r q) = _
  rw [hd, hb]

/-- Entry (p, q) of what the kernel body stores, from the three blocks it loads: the product into the zero
    accumulator is the sum over k (the narrowing of the operands is the identity on the extended reals), the bias row
    sent to every row of the tile reads its entry (0, q). -/
theorem body_entry (x0 : FVec Ideal S4000x64 .f32) (x1 : FVec Ideal S64x2 .f32) (x2 : FVec Ideal S1x2 .f32)
    (p : Fin 4000) (q : Fin 2) :
    k6_pay1 (F := Ideal) x0 x1 x2 (ix2 p q) = (∑ k : Fin 64, x0 (ix2 p k) * x1 (ix2 k q)) + x2 (ix2 (0 : Fin 1) q) := by
  have hm : matmul (F := Ideal) dot_S4000x64_S64x2_S4000x2_1_0_0_1_n_n none
        (truncf .bf16 (shapeCast S4000x64 x0 shapeCasts_S4000x64_S4000x64) bitsLt_bf16_f32) (truncf .bf16 x1 bitsLt_bf16_f32)
        (constant (F := Ideal) S4000x2 .f32 0x00000000#32) (ix2 p q) = ∑ k : Fin 64, x0 (ix2 p k) * x1 (ix2 k q) := by
    rw [shapeCast_self]; exact Cert.LibPlainDot.matmul_zero_apply none _ _ p q
  have hb : broadcastTo S4000x2 (shapeCast S1x2 x2 shapeCasts_S1x2_S1x2) broadcasts_S1x2_S4000x2 (ix2 p q)
      = x2 (ix2 (0 : Fin 1) q) := by
    rw [shapeCast_self]; exact broadcastTo_1b_ab_apply x2 _ p q
  show matmul (F := Ideal) dot_S4000x64_S64x2_S4000x2_1_0_0_1_n_n none
        (truncf .bf16 (shapeCast S4000x64 x0 shapeCasts_S4000x64_S4000x64) bitsLt_bf16_f32) (truncf .bf16 x1 bitsLt_bf16_f32)
        (constant (F := Ideal) S4000x2 .f32 0x00000000#32) (ix2 p q)
      + broadcastTo S4000x2 (shapeCast S1x2 x2 shapeCasts_S1x2_S1x2) broadcasts_S1x2_S4000x2 (ix2 p q) = _
  rw [hm, hb]

/-- The body's store at tile n, entry by entry, is the layer at the rows of tile n: whenever the first loaded block is
    rows 4000·n … of x, the second is W and the third is the bias vector as a row, entry y of the store is entry i of the
    layer, for i the index y moved down by 4000·n rows. -/
theorem tile_entry (x : FVec Ideal S100000x64 .f32) (W : FVec Ideal S64x2 .f32) (b : FVec Ideal S2 .f32)
    (x0 : FVec Ideal S4000x64 .f32) (x1 : FVec Ideal S64x2 .f32) (x2 : FVec Ideal S1x2 .f32) (n : Nat)
    (h0 : ∀ (y : S4000x64.Idx) (i : S100000x64.Idx), (i 0).val = n * 4000 + (y 0).val → (i 1).val = (y 1).val → x0 y = x i)
    (h1 : x1 = W) (h2 : x2 = shapeCast S1x2 b shapeCasts_S2_S1x2)
    (y : S4000x2.Idx) (i : S100000x2.Idx) (e0 : (i 0).val = n * 4000 + (y 0).val) (e1 : (i 1).val = (y 1).val) :
    k6_pay1 (F := Ideal) x0 x1 x2 y = Cert.Spec.classify x W b i := by
  obtain ⟨p, q, rfl⟩ : ∃ (p : Fin 4000) (q : Fin 2), y = ix2 p q := ⟨y 0, y 1, eq_ix2 y⟩
  obtain ⟨r, q', rfl⟩ : ∃ (r : Fin 100000) (q' : Fin 2), i = ix2 r q' := ⟨i 0, i 1, eq_ix2 i⟩
  have er : r.val = n * 4000 + p.val := e0
  obtain rfl : q = q' := (Fin.ext e1).symm
  subst h1 h2
  have hs : (∑ k : Fin 64, x0 (ix2 p k) * x1 (ix2 k q)) = ∑ k : Fin 64, x (ix2 r k) * x1 (ix2 k q) :=
    Finset.sum_congr rfl fun k _ => by rw [h0 (ix2 p k) (ix2 r k) er rfl]
  rw [body_entry, spec_entry, hs, shapeCast_a_1a_apply]

/-! ## From the tiles to the array -/

/-- The printed index maps, decided over the 25 grid points: the input's and the output's row tile is the point's
    number, their column block is 0, and the weights and the bias are block (0, 0) at every point. -/
theorem index_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is tile t of the layer of the arrays the region finds. -/
theorem flushed_eq (c : Dev nD) (x : FVec Ideal S100000x64 .f32) (W : FVec Ideal S64x2 .f32) (b : FVec Ideal S2 .f32)
    (hx : V c main_v64 = x) (hW : V c main_arg9 = W) (hb : V c main_v65 = shapeCast _ b shapeCasts_S2_S1x2)
    (t : Fin cfg6.N) :
    (dat6 (F := Ideal) V c).flushed 3 t = ((cfg6.win 3).blk t).view.read (Elt Ideal) (Cert.Spec.classify x W b) := by
  show (cfg6.win 3).cut (grid6.coords t) ((dat6 V c).after 3 t) = _
  rw [after6_3]
  unfold out6_3
  rw [View.canon_unit_zero Cert.LibBiasRow.zero_offsets]
  simp only [View.ld_unit_zero (S := S4000x64) Cert.LibBiasRow.zero_offsets,
    View.ld_unit_zero (S := S64x2) Cert.LibBiasRow.zero_offsets,
    View.ld_unit_zero (S := S1x2) Cert.LibBiasRow.zero_offsets]
  obtain ⟨a0, a1, b0, b1, c0, c1, d0, d1⟩ := index_facts t
  funext j
  refine tile_entry x W b (iblk6 V c 0 t) (iblk6 V c 1 t) (iblk6 V c 2 t) t.val ?_ ?_ ?_
    ((win6 3).xinj (grid6.coords t) j) (((cfg6.win 3).blk t).view.emb j) ?_ ?_
  · intro y i e0 e1
    show V c main_v64 (((cfg6.win 0).blk t).view.emb y) = x i
    rw [hx]
    refine congrArg x (funext fun a => Fin.ext ?_)
    match a with
    | ⟨0, _⟩ => show win6_0.index t (0 : Fin 2) * 4000 + 1 * (y 0).val = (i 0).val; omega
    | ⟨1, _⟩ => show win6_0.index t (1 : Fin 2) * 64 + 1 * (y 1).val = (i 1).val; omega
  · funext y
    show V c main_arg9 (((cfg6.win 1).blk t).view.emb y) = W y
    rw [hW]
    refine congrArg W (funext fun a => Fin.ext ?_)
    match a with
    | ⟨0, _⟩ => show win6_1.index t (0 : Fin 2) * 64 + 1 * (y 0).val = (y 0).val; omega
    | ⟨1, _⟩ => show win6_1.index t (1 : Fin 2) * 2 + 1 * (y 1).val = (y 1).val; omega
  · funext y
    show V c main_v65 (((cfg6.win 2).blk t).view.emb y) = shapeCast S1x2 b shapeCasts_S2_S1x2 y
    rw [hb]
    refine congrArg (shapeCast S1x2 b shapeCasts_S2_S1x2) (funext fun a => Fin.ext ?_)
    match a with
    | ⟨0, _⟩ => show win6_2.index t (0 : Fin 2) * 1 + 1 * (y 0).val = (y 0).val; omega
    | ⟨1, _⟩ => show win6_2.index t (1 : Fin 2) * 2 + 1 * (y 1).val = (y 1).val; omega
  · show win6_3.index t (0 : Fin 2) * 4000 + 1 * (j 0).val = t.val * 4000 + (j 0).val; omega
  · show win6_3.index t (1 : Fin 2) * 2 + 1 * (j 1).val = (j 1).val; omega

/-- An index of the output array is in point t's tile iff each coordinate is in the tile's range on its axis. -/
theorem mem_tile (t : Fin cfg6.N) (i : S100000x2.Idx) :
    i ∈ ((cfg6.win 3).blk t).view.set ↔ ∀ a : Fin 2, win6_3.index t a * S4000x2.size a ≤ (i a).val
      ∧ (i a).val < win6_3.index t a * S4000x2.size a + S4000x2.size a := by
  show i ∈ ((View.whole main_v66).slice (win6_3.rect t)).set ↔ _
  rw [View.set_slice_whole, Rect.mem_set_unit]
  exact Iff.rfl

/-- Every index of the output array is in the tile of a point that writes back: row r is in tile r / 4000. -/
theorem covered (i : S100000x2.Idx) :
    ∃ t : Fin cfg6.N, (cfg6.win 3).flush t = true ∧ i ∈ ((cfg6.win 3).blk t).view.set := by
  have hi0 : (i 0).val < 100000 := (i 0).isLt
  have hi1 : (i 1).val < 2 := (i 1).isLt
  have hN : cfg6.N = 25 := N_6
  obtain ⟨t, ht⟩ : ∃ t : Fin cfg6.N, t.val = (i 0).val / 4000 := ⟨⟨(i 0).val / 4000, by rw [hN]; omega⟩, rfl⟩
  obtain ⟨-, -, -, -, -, -, d0, d1⟩ := index_facts t
  refine ⟨t, flush6_3 t, ?_⟩
  rw [mem_tile]
  intro a
  match a with
  | ⟨0, _⟩ =>
    show win6_3.index t (0 : Fin 2) * 4000 ≤ (i 0).val ∧ (i 0).val < win6_3.index t (0 : Fin 2) * 4000 + 4000
    omega
  | ⟨1, _⟩ =>
    show win6_3.index t (1 : Fin 2) * 2 ≤ (i 1).val ∧ (i 1).val < win6_3.index t (1 : Fin 2) * 2 + 2
    omega

end Classifier

/-- Region 6: the output array ends holding the layer of the input array, the weights and the bias vector, the bias
    having entered the region as the row [1, 2] the host made of the vector. -/
theorem region6 (c : Dev nD) (h : FVec Ideal S100000x64 .f32) (W : FVec Ideal S64x2 .f32) (b : FVec Ideal S2 .f32)
    (hh : V c main_v64 = h) (hW : V c main_arg9 = W) (hb : V c main_v65 = shapeCast _ b shapeCasts_S2_S1x2) :
    (dat6 (F := Ideal) V c).arrAt 3 cfg6.N = Cert.Spec.classify h W b :=
  (dat6 (F := Ideal) V c).arrAt_eq_of_cover 3 (Cert.Spec.classify h W b)
    (fun t _ => Classifier.flushed_eq V c h W b hh hW hb t) Classifier.covered

end Cert.KernelIdeal.RegionValue

end
-- ==== Proof.NodeMapEntry.lean ====
/-
  The per-node linear map of a graph convolution, h · W, read at one entry: on the whole array [100000, 64] as the
  reference program's product, and on one row tile [4000, 64] as the product the kernel computes into a zero
  accumulator. Both are the sum over k < 64 of h (row, k) · W (k, column); the kernel's changes of float format are
  the identity on the extended reals, and its casts of a shape to itself are the identity.
-/
import proofs.«156511_j87832081203316_1_alg».proof.Proof.Gen.KernelIdeal.Frame
import proofs.«156511_j87832081203316_1_alg».proof.Proof.Spec
import proofs.«156511_j87832081203316_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx
open scoped BigOperators

namespace Cert.KernelIdeal.RegionValue

/-- The two zero offsets of an access to a whole block, as a constant function. -/
theorem zero_offsets : (![0, 0] : Fin 2 → Nat) = fun _ => 0 := funext fun a => by fin_cases a <;> rfl

/-- Entry (r, q) of h · W on the whole array. -/
theorem nodeMap_apply (h : FVec Ideal S100000x64 .f32) (W : FVec Ideal S64x64 .f32) (r : Fin 100000) (q : Fin 64) :
    Cert.Spec.nodeMap h W (ix2 r q) = ∑ k : Fin 64, (h (ix2 r k) * W (ix2 k q) : EReal) :=
  Cert.LibPlainDot.dotGeneral_apply (M := 100000) (K := 64) (N := 64) none .single h W r q

/-- Entry (p, q) of the product of one row tile with the weights, as the first convolution's kernel computes it. -/
theorem k2_pay1_apply (x0 : Vec Ideal S4000x64 .f32) (x1 : Vec Ideal S64x64 .f32) (p : Fin 4000) (q : Fin 64) :
    k2_pay1 (F := Ideal) x0 x1 (ix2 p q) = ∑ k : Fin 64, (x0 (ix2 p k) * x1 (ix2 k q) : EReal) := by
  unfold k2_pay1
  rw [shapeCast_self]
  exact Cert.LibPlainDot.matmul_zero_apply (M := 4000) (K := 64) (N := 64) none
    (truncf .bf16 x0 bitsLt_bf16_f32) (truncf .bf16 x1 bitsLt_bf16_f32) p q

/-- The same for the second convolution's kernel. -/
theorem k4_pay1_apply (x0 : Vec Ideal S4000x64 .f32) (x1 : Vec Ideal S64x64 .f32) (p : Fin 4000) (q : Fin 64) :
    k4_pay1 (F := Ideal) x0 x1 (ix2 p q) = ∑ k : Fin 64, (x0 (ix2 p k) * x1 (ix2 k q) : EReal) := by
  unfold k4_pay1
  rw [shapeCast_self]
  exact Cert.LibPlainDot.matmul_zero_apply (M := 4000) (K := 64) (N := 64) none
    (truncf .bf16 x0 bitsLt_bf16_f32) (truncf .bf16 x1 bitsLt_bf16_f32) p q

end Cert.KernelIdeal.RegionValue

end
-- ==== Proof.Region2.lean ====
/-
  The first convolution's per-node linear map, from row tiles to the whole array. The kernel walks 25 row tiles of
  4000 rows; at tile t it multiplies rows 4000·t … 4000·t + 3999 of h by the whole weight matrix and writes the
  product back to the same rows of its result. Every row lies in exactly one tile, so the result array is h · W.
-/
import proofs.«156511_j87832081203316_1_alg».proof.Proof.Gen.KernelIdeal.Frame
import proofs.«156511_j87832081203316_1_alg».proof.Proof.Spec
import proofs.«156511_j87832081203316_1_alg».proof.Proof.NodeMapEntry
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx
open scoped BigOperators

namespace Cert.KernelIdeal.RegionValue

/-- One tile: when row p of the tile is row r of h and the weights are W, entry (p, q) of the tile's product is entry
    (r, q) of h · W. -/
theorem tile2_eq (x0 : Vec Ideal S4000x64 .f32) (x1 : Vec Ideal S64x64 .f32) (h : FVec Ideal S100000x64 .f32)
    (W : FVec Ideal S64x64 .f32) (p : Fin 4000) (q : Fin 64) (r : Fin 100000)
    (hx0 : ∀ k : Fin 64, x0 (ix2 p k) = h (ix2 r k)) (hx1 : ∀ k : Fin 64, x1 (ix2 k q) = W (ix2 k q)) :
    k2_pay1 (F := Ideal) x0 x1 (ix2 p q) = Cert.Spec.nodeMap h W (ix2 r q) := by
  rw [k2_pay1_apply, nodeMap_apply]
  exact Finset.sum_congr rfl fun k _ => by rw [hx0 k, hx1 k]

variable (V : (c : Dev nD) → (b : Ref sig .tc) → Buf (Elt Ideal) ((c : Thread nD τ).loc b))

/-- The block index of each window at each of the 25 tiles: the feature tile and the result tile are tile t of the
    rows, the weights are the one block of their array. -/
theorem index_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature tile at t, entry (p, k), is the feature array at row 4000·t + p. -/
theorem iblk2_0_apply (c : Dev nD) (t : Fin cfg2.N) (p : Fin 4000) (k : Fin 64) (r : Fin 100000)
    (hr : r.val = t.val * 4000 + p.val) :
    (iblk2 V c 0 t : Vec Ideal S4000x64 .f32) (ix2 p k) = (V c main_v30 : S100000x64.Idx → EReal) (ix2 r k) := by
  obtain ⟨e0, e1, -⟩ := index_facts2 t
  unfold iblk2
  rw [View.read_apply]
  show V c main_v30 _ = V c main_v30 _
  refine congrArg (V c main_v30) (funext fun a => Fin.ext ?_)
  match a with
  | ⟨0, _⟩ => show win2_0.index t (0 : Fin 2) * 4000 + 1 * p.val = r.val; rw [e0, hr]; omega
  | ⟨1, _⟩ => show win2_0.index t (1 : Fin 2) * 64 + 1 * k.val = k.val; rw [e1]; omega

/-- The weights' block at every tile is the whole weight matrix. -/
theorem iblk2_1_apply (c : Dev nD) (t : Fin cfg2.N) (k : Fin 64) (q : Fin 64) :
    (iblk2 V c 1 t : Vec Ideal S64x64 .f32) (ix2 k q) = (V c main_arg5 : S64x64.Idx → EReal) (ix2 k q) := by
  obtain ⟨-, -, e2, e3, -⟩ := index_facts2 t
  unfold iblk2
  rw [View.read_apply]
  show V c main_arg5 _ = V c main_arg5 _
  refine congrArg (V c main_arg5) (funext fun a => Fin.ext ?_)
  match a with
  | ⟨0, _⟩ => show win2_1.index t (0 : Fin 2) * 64 + 1 * k.val = k.val; rw [e2]; omega
  | ⟨1, _⟩ => show win2_1.index t (1 : Fin 2) * 64 + 1 * q.val = q.val; rw [e3]; omega

/-- At tile t, entry j of the tile's product is the entry of h · W that the result's block at t places j at. -/
theorem tile2_at (c : Dev nD) (t : Fin cfg2.N) (j : S4000x64.Idx) :
    k2_pay1 (F := Ideal) (iblk2 V c 0 t) (iblk2 V c 1 t) j
      = Cert.Spec.nodeMap (V c main_v30) (V c main_arg5) (((cfg2.win 2).blk t).view.emb j) := by
  obtain ⟨-, -, -, -, e4, e5⟩ := index_facts2 t
  have ht : t.val < 25 := lt_of_lt_of_eq t.isLt N_2
  obtain ⟨p, q, rfl⟩ : ∃ (p : Fin 4000) (q : Fin 64), j = ix2 p q := ⟨j 0, j 1, eq_ix2 j⟩
  have hemb : ((cfg2.win 2).blk t).view.emb (ix2 p q) = (ix2 (⟨t.val * 4000 + p.val, by omega⟩ : Fin 100000) q : S100000x64.Idx) :=
    funext fun a => Fin.ext (by
      match a with
      | ⟨0, _⟩ => show win2_2.index t (0 : Fin 2) * 4000 + 1 * p.val = t.val * 4000 + p.val; rw [e4]; omega
      | ⟨1, _⟩ => show win2_2.index t (1 : Fin 2) * 64 + 1 * q.val = q.val; rw [e5]; omega)
  rw [hemb]
  exact tile2_eq (iblk2 V c 0 t) (iblk2 V c 1 t) (V c main_v30) (V c main_arg5) p q _
    (fun k => iblk2_0_apply V c t p k _ rfl) (fun k => iblk2_1_apply V c t k q)

/-- What tile t writes back is rows 4000·t … 4000·t + 3999 of h · W. -/
theorem flushed2_eq (c : Dev nD) (h : FVec Ideal S100000x64 .f32) (W : FVec Ideal S64x64 .f32)
    (hh : V c main_v30 = h) (hW : V c main_arg5 = W) (t : Fin cfg2.N) :
    (dat2 (F := Ideal) V c).flushed 2 t = ((cfg2.win 2).blk t).view.read (Elt Ideal) (Cert.Spec.nodeMap h W) := by
  subst hh hW
  show (cfg2.win 2).cut (grid2.coords t) ((dat2 V c).after 2 t) = _
  rw [after2_2]
  unfold out2_2
  rw [View.canon_unit_zero zero_offsets]
  simp only [View.ld_unit_zero (S := S4000x64) zero_offsets, View.ld_unit_zero (S := S64x64) zero_offsets]
  funext j
  exact tile2_at V c t j

/-- An index of the result array is in tile t's block iff each coordinate is in the block's range on its axis. -/
theorem mem_blk2 (t : Fin cfg2.N) (i : S100000x64.Idx) :
    i ∈ ((cfg2.win 2).blk t).view.set ↔ ∀ a : Fin 2, win2_2.index t a * S4000x64.size a ≤ (i a).val
      ∧ (i a).val < win2_2.index t a * S4000x64.size a + S4000x64.size a := by
  show i ∈ ((View.whole main_v31).slice (win2_2.rect t)).set ↔ _
  rw [View.set_slice_whole, Rect.mem_set_unit]
  exact Iff.rfl

/-- Every entry of the result array is written back by the tile its row lies in: row r by tile r / 4000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 4000 :=
    ⟨⟨(i 0).val / 4000, by rw [show cfg2.N = 25 from N_2]; omega⟩, rfl⟩
  obtain ⟨-, -, -, -, e4, e5⟩ := index_facts2 t
  refine ⟨t, flush2_2 t, ?_⟩
  rw [mem_blk2]
  intro a
  match a with
  | ⟨0, _⟩ =>
    show win2_2.index t (0 : Fin 2) * 4000 ≤ (i 0).val ∧ (i 0).val < win2_2.index t (0 : Fin 2) * 4000 + 4000
    rw [e4, ht]; omega
  | ⟨1, _⟩ =>
    show win2_2.index t (1 : Fin 2) * 64 ≤ (i 1).val ∧ (i 1).val < win2_2.index t (1 : Fin 2) * 64 + 64
    rw [e5]; omega

/-- REGION 2: the result array of the first convolution's product kernel is h · W. -/
theorem region2 (c : Dev nD) (h : FVec Ideal S100000x64 .f32) (W : FVec Ideal S64x64 .f32)
    (hh : V c main_v30 = h) (hW : V c main_arg5 = W) :
    (dat2 (F := Ideal) V c).arrAt 2 cfg2.N = Cert.Spec.nodeMap h W :=
  (dat2 (F := Ideal) V c).arrAt_eq_of_cover 2 (Cert.Spec.nodeMap h W) (fun t _ => flushed2_eq V c h W hh hW t) cover2

end Cert.KernelIdeal.RegionValue

end
-- ==== Proof.Region4.lean ====
/-
  The second convolution's per-node linear map, from row tiles to the whole array. The kernel walks 25 row tiles of
  4000 rows; at tile t it multiplies rows 4000·t … 4000·t + 3999 of h by the whole weight matrix and writes the
  product back to the same rows of its result. Every row lies in exactly one tile, so the result array is h · W.
-/
import proofs.«156511_j87832081203316_1_alg».proof.Proof.Gen.KernelIdeal.Frame
import proofs.«156511_j87832081203316_1_alg».proof.Proof.Spec
import proofs.«156511_j87832081203316_1_alg».proof.Proof.NodeMapEntry
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx
open scoped BigOperators

namespace Cert.KernelIdeal.RegionValue

/-- One tile: when row p of the tile is row r of h and the weights are W, entry (p, q) of the tile's product is entry
    (r, q) of h · W. -/
theorem tile4_eq (x0 : Vec Ideal S4000x64 .f32) (x1 : Vec Ideal S64x64 .f32) (h : FVec Ideal S100000x64 .f32)
    (W : FVec Ideal S64x64 .f32) (p : Fin 4000) (q : Fin 64) (r : Fin 100000)
    (hx0 : ∀ k : Fin 64, x0 (ix2 p k) = h (ix2 r k)) (hx1 : ∀ k : Fin 64, x1 (ix2 k q) = W (ix2 k q)) :
    k4_pay1 (F := Ideal) x0 x1 (ix2 p q) = Cert.Spec.nodeMap h W (ix2 r q) := by
  rw [k4_pay1_apply, nodeMap_apply]
  exact Finset.sum_congr rfl fun k _ => by rw [hx0 k, hx1 k]

variable (V : (c : Dev nD) → (b : Ref sig .tc) → Buf (Elt Ideal) ((c : Thread nD τ).loc b))

/-- The block index of each window at each of the 25 tiles: the feature tile and the result tile are tile t of the
    rows, the weights are the one block of their array. -/
theorem index_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The feature tile at t, entry (p, k), is the feature array at row 4000·t + p. -/
theorem iblk4_0_apply (c : Dev nD) (t : Fin cfg4.N) (p : Fin 4000) (k : Fin 64) (r : Fin 100000)
    (hr : r.val = t.val * 4000 + p.val) :
    (iblk4 V c 0 t : Vec Ideal S4000x64 .f32) (ix2 p k) = (V c main_v47 : S100000x64.Idx → EReal) (ix2 r k) := by
  obtain ⟨e0, e1, -⟩ := index_facts4 t
  unfold iblk4
  rw [View.read_apply]
  show V c main_v47 _ = V c main_v47 _
  refine congrArg (V c main_v47) (funext fun a => Fin.ext ?_)
  match a with
  | ⟨0, _⟩ => show win4_0.index t (0 : Fin 2) * 4000 + 1 * p.val = r.val; rw [e0, hr]; omega
  | ⟨1, _⟩ => show win4_0.index t (1 : Fin 2) * 64 + 1 * k.val = k.val; rw [e1]; omega

/-- The weights' block at every tile is the whole weight matrix. -/
theorem iblk4_1_apply (c : Dev nD) (t : Fin cfg4.N) (k : Fin 64) (q : Fin 64) :
    (iblk4 V c 1 t : Vec Ideal S64x64 .f32) (ix2 k q) = (V c main_arg7 : S64x64.Idx → EReal) (ix2 k q) := by
  obtain ⟨-, -, e2, e3, -⟩ := index_facts4 t
  unfold iblk4
  rw [View.read_apply]
  show V c main_arg7 _ = V c main_arg7 _
  refine congrArg (V c main_arg7) (funext fun a => Fin.ext ?_)
  match a with
  | ⟨0, _⟩ => show win4_1.index t (0 : Fin 2) * 64 + 1 * k.val = k.val; rw [e2]; omega
  | ⟨1, _⟩ => show win4_1.index t (1 : Fin 2) * 64 + 1 * q.val = q.val; rw [e3]; omega

/-- At tile t, entry j of the tile's product is the entry of h · W that the result's block at t places j at. -/
theorem tile4_at (c : Dev nD) (t : Fin cfg4.N) (j : S4000x64.Idx) :
    k4_pay1 (F := Ideal) (iblk4 V c 0 t) (iblk4 V c 1 t) j
      = Cert.Spec.nodeMap (V c main_v47) (V c main_arg7) (((cfg4.win 2).blk t).view.emb j) := by
  obtain ⟨-, -, -, -, e4, e5⟩ := index_facts4 t
  have ht : t.val < 25 := lt_of_lt_of_eq t.isLt N_4
  obtain ⟨p, q, rfl⟩ : ∃ (p : Fin 4000) (q : Fin 64), j = ix2 p q := ⟨j 0, j 1, eq_ix2 j⟩
  have hemb : ((cfg4.win 2).blk t).view.emb (ix2 p q) = (ix2 (⟨t.val * 4000 + p.val, by omega⟩ : Fin 100000) q : S100000x64.Idx) :=
    funext fun a => Fin.ext (by
      match a with
      | ⟨0, _⟩ => show win4_2.index t (0 : Fin 2) * 4000 + 1 * p.val = t.val * 4000 + p.val; rw [e4]; omega
      | ⟨1, _⟩ => show win4_2.index t (1 : Fin 2) * 64 + 1 * q.val = q.val; rw [e5]; omega)
  rw [hemb]
  exact tile4_eq (iblk4 V c 0 t) (iblk4 V c 1 t) (V c main_v47) (V c main_arg7) p q _
    (fun k => iblk4_0_apply V c t p k _ rfl) (fun k => iblk4_1_apply V c t k q)

/-- What tile t writes back is rows 4000·t … 4000·t + 3999 of h · W. -/
theorem flushed4_eq (c : Dev nD) (h : FVec Ideal S100000x64 .f32) (W : FVec Ideal S64x64 .f32)
    (hh : V c main_v47 = h) (hW : V c main_arg7 = W) (t : Fin cfg4.N) :
    (dat4 (F := Ideal) V c).flushed 2 t = ((cfg4.win 2).blk t).view.read (Elt Ideal) (Cert.Spec.nodeMap h W) := by
  subst hh hW
  show (cfg4.win 2).cut (grid4.coords t) ((dat4 V c).after 2 t) = _
  rw [after4_2]
  unfold out4_2
  rw [View.canon_unit_zero zero_offsets]
  simp only [View.ld_unit_zero (S := S4000x64) zero_offsets, View.ld_unit_zero (S := S64x64) zero_offsets]
  funext j
  exact tile4_at V c t j

/-- An index of the result array is in tile t's block iff each coordinate is in the block's range on its axis. -/
theorem mem_blk4 (t : Fin cfg4.N) (i : S100000x64.Idx) :
    i ∈ ((cfg4.win 2).blk t).view.set ↔ ∀ a : Fin 2, win4_2.index t a * S4000x64.size a ≤ (i a).val
      ∧ (i a).val < win4_2.index t a * S4000x64.size a + S4000x64.size a := by
  show i ∈ ((View.whole main_v48).slice (win4_2.rect t)).set ↔ _
  rw [View.set_slice_whole, Rect.mem_set_unit]
  exact Iff.rfl

/-- Every entry of the result array is written back by the tile its row lies in: row r by tile r / 4000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 4000 :=
    ⟨⟨(i 0).val / 4000, by rw [show cfg4.N = 25 from N_4]; omega⟩, rfl⟩
  obtain ⟨-, -, -, -, e4, e5⟩ := index_facts4 t
  refine ⟨t, flush4_2 t, ?_⟩
  rw [mem_blk4]
  intro a
  match a with
  | ⟨0, _⟩ =>
    show win4_2.index t (0 : Fin 2) * 4000 ≤ (i 0).val ∧ (i 0).val < win4_2.index t (0 : Fin 2) * 4000 + 4000
    rw [e4, ht]; omega
  | ⟨1, _⟩ =>
    show win4_2.index t (1 : Fin 2) * 64 ≤ (i 1).val ∧ (i 1).val < win4_2.index t (1 : Fin 2) * 64 + 64
    rw [e5]; omega

/-- REGION 4: the result array of the second convolution's product kernel is h · W. -/
theorem region4 (c : Dev nD) (h : FVec Ideal S100000x64 .f32) (W : FVec Ideal S64x64 .f32)
    (hh : V c main_v47 = h) (hW : V c main_arg7 = W) :
    (dat4 (F := Ideal) V c).arrAt 2 cfg4.N = Cert.Spec.nodeMap h W :=
  (dat4 (F := Ideal) V c).arrAt_eq_of_cover 2 (Cert.Spec.nodeMap h W) (fun t _ => flushed4_eq V c h W hh hW t) cover4

end Cert.KernelIdeal.RegionValue

end
-- ==== Proof.LibMatrixBroadcast.lean ====
/-
  A COLUMN, A ROW AND A SCALAR REPEATED OVER A MATRIX, READ AT ONE ENTRY.

  A broadcast that names, for each axis of its operand, the axis of the result it goes to, reads the operand at
  the result's coordinate on a shared axis and at 0 on an axis where the operand has extent one. Three cases,
  general in the extents and in the element type:

    a column [a, 1] over [a, b] (axes to themselves):   entry (p, q) is the column at (p, 0);
    a row    [1, b] over [a, b] (axes to themselves):   entry (p, q) is the row at (0, q);
    a scalar over any shape:                            every entry is the scalar.

  The first is how a per-row scale multiplies every entry of its row, the second how a bias row is added to every
  row, the third a constant array.
-/
import Idealize.ShloMosaic.Lib.ValueIdx
import Idealize.ShloMosaic.Lib.Pipeline.Value

noncomputable section

namespace Cert.LibMatrixBroadcast

open Idealize.ShloMosaic Idealize.ShloMosaic.ValueIdx

/-- A column [a, 1] broadcast to [a, b], each axis to itself, reads at (p, q) the column at (p, 0): the first
    axis's coordinate p is kept (and if a = 1 then p = 0 anyway); the second axis of the column has extent one,
    so its coordinate is 0. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ => rfl

/-- A row [1, b] broadcast to [a, b], each axis to itself, reads at (p, q) the row at (0, q): the first axis of
    the row has extent one, so its coordinate is 0; the second axis's coordinate q is kept (and if b = 1 then
    q = 0 anyway). -/
theorem broadcastInDim_1b_ab_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ => rfl
  | ⟨1, _⟩ =>
    show q.val = if b = 1 then 0 else q.val
    split
    · have := q.isLt; omega
    · rfl

/-- A scalar broadcast to any shape reads the scalar at every entry: the scalar has no axis, so it has a single
    index and nothing to compare. -/
theorem broadcastInDim_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun ax => ax.elim0

end Cert.LibMatrixBroadcast

end
-- ==== Proof.CombineEntry.lean ====
/-
  A convolution's last step, lrelu (agg + hw · d2 + b), read at one entry: on the whole array [100000, 64] as the
  reference program writes it, and on one row tile [4000, 64] as the kernel computes it. On the whole array the node
  factor d2 [100000] is made a column and repeated along the 64 columns, the bias b [64] is made a row and repeated
  along the rows. On a tile the kernel receives the node factor as a column [4000, 1] and the bias as a row [1, 64] and
  repeats them itself. Both read agg + hw · (the row's factor) + (the column's bias) and apply lrelu to it.
-/
import proofs.«156511_j87832081203316_1_alg».proof.Proof.Gen.KernelIdeal.Frame
import proofs.«156511_j87832081203316_1_alg».proof.Proof.Spec
import proofs.«156511_j87832081203316_1_alg».proof.Proof.LibColumn
import proofs.«156511_j87832081203316_1_alg».proof.Proof.LibVecColumn
import proofs.«156511_j87832081203316_1_alg».proof.Proof.LibRowVector
import proofs.«156511_j87832081203316_1_alg».proof.Proof.LibMatrixBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx
open scoped BigOperators

namespace Cert.KernelIdeal.RegionValue

/-- lrelu on one extended real: y where y ≥ 0, 0.01 · y elsewhere, with 0 and 0.01 the numbers their f32 words denote. -/
def lreluAt (y : EReal) : EReal :=
  Scalar.select (Ideal.cmp .oge y (Ideal.ofBits .f32 0x00000000#32)) y (Ideal.ofBits .f32 0x3C23D70A#32 * y)

/-- The two zero offsets of an access to a whole block, as a constant function. -/
theorem zero_offsets2 : (![0, 0] : Fin 2 → Nat) = fun _ => 0 := funext fun a => by fin_cases a <;> rfl

/-- Entry (r, q) of the last step on the whole array. -/
theorem combine_apply (agg hw : FVec Ideal S100000x64 .f32) (d2 : FVec Ideal S100000 .f32) (b : FVec Ideal S64 .f32)
    (r : Fin 100000) (q : Fin 64) :
    Cert.Spec.combine agg hw d2 b (ix2 r q) = lreluAt (agg (ix2 r q) + hw (ix2 r q) * d2 (ix1 r) + b (ix1 q)) := by
  unfold Cert.Spec.combine Cert.Spec.lrelu64
  simp only [select_apply, cmpf_apply, mulf_apply, addf_apply]
  rw [Cert.LibMatrixBroadcast.broadcastInDim_a1_ab_apply (a := 100000) (b := 64),
    Cert.LibVecColumn.broadcastInDim_a_a1_apply (a := 100000),
    Cert.LibMatrixBroadcast.broadcastInDim_1b_ab_apply (a := 100000) (b := 64),
    Cert.LibRowVector.broadcastInDim_b_1b_apply (b := 64)]
  rw [Cert.LibMatrixBroadcast.broadcastInDim_scalar_apply, Cert.LibMatrixBroadcast.broadcastInDim_scalar_apply]
  rfl

/-- Entry (p, q) of the last step on one row tile, as the first convolution's kernel computes it. -/
theorem k3_pay1_apply (x0 x1 : Vec Ideal S4000x64 .f32) (x2 : Vec Ideal S4000x1 .f32) (x3 : Vec Ideal S1x64 .f32)
    (p : Fin 4000) (q : Fin 64) :
    k3_pay1 (F := Ideal) x0 x1 x2 x3 (ix2 p q)
      = lreluAt (x0 (ix2 p q) + x1 (ix2 p q) * x2 (ix2 p (0 : Fin 1)) + x3 (ix2 (0 : Fin 1) q)) := by
  unfold k3_pay1
  simp only [shapeCast_self]
  simp only [select_apply, cmpf_apply, mulf_apply, addf_apply, broadcast_apply]
  rw [Cert.LibColumn.broadcastTo_a1_ab_apply (a := 4000) (b := 64), broadcastTo_1b_ab_apply (a := 4000) (b := 64)]
  rfl

/-- The same for the second convolution's kernel. -/
theorem k5_pay1_apply (x0 x1 : Vec Ideal S4000x64 .f32) (x2 : Vec Ideal S4000x1 .f32) (x3 : Vec Ideal S1x64 .f32)
    (p : Fin 4000) (q : Fin 64) :
    k5_pay1 (F := Ideal) x0 x1 x2 x3 (ix2 p q)
      = lreluAt (x0 (ix2 p q) + x1 (ix2 p q) * x2 (ix2 p (0 : Fin 1)) + x3 (ix2 (0 : Fin 1) q)) := by
  unfold k5_pay1
  simp only [shapeCast_self]
  simp only [select_apply, cmpf_apply, mulf_apply, addf_apply, broadcast_apply]
  rw [Cert.LibColumn.broadcastTo_a1_ab_apply (a := 4000) (b := 64), broadcastTo_1b_ab_apply (a := 4000) (b := 64)]
  rfl

/-- The node factor as the kernel receives it: the column [100000, 1] reshaped from d2 reads d2 (r) at (r, 0). -/
theorem column_apply (d2 : FVec Ideal S100000 .f32) (r : Fin 100000) (u : Fin 1) :
    shapeCast S100000x1 d2 shapeCasts_S100000_S100000x1 (ix2 r u) = d2 (ix1 r) :=
  Cert.LibColumn.shapeCast_a_a1_apply d2 shapeCasts_S100000_S100000x1 r u

/-- The bias as the kernel receives it: the row [1, 64] reshaped from b reads b (q) at (0, q). -/
theorem row_apply (b : FVec Ideal S64 .f32) (u : Fin 1) (q : Fin 64) :
    shapeCast S1x64 b shapeCasts_S64_S1x64 (ix2 u q) = b (ix1 q) :=
  Cert.LibVecColumn.shapeCast_b_1b_apply b shapeCasts_S64_S1x64 u q

end Cert.KernelIdeal.RegionValue

end
-- ==== Proof.Region3.lean ====
/-
  The first convolution's last step, from row tiles to the whole array. The kernel walks 25 row tiles of 4000 rows; at
  tile t it reads rows 4000·t … 4000·t + 3999 of the neighbourhood sum, of h · W and of the node factor's column, and
  the whole bias row, and writes lrelu (agg + hw · factor + bias) back to the same rows of its result. Every row lies
  in exactly one tile, so the result array is the last step applied to the whole arrays.
-/
import proofs.«156511_j87832081203316_1_alg».proof.Proof.Gen.KernelIdeal.Frame
import proofs.«156511_j87832081203316_1_alg».proof.Proof.Spec
import proofs.«156511_j87832081203316_1_alg».proof.Proof.CombineEntry
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx
open scoped BigOperators

namespace Cert.KernelIdeal.RegionValue

/-- One tile: when row p of each row-tiled block is row r of its array, and the bias block is the bias row, entry
    (p, q) of the tile's result is entry (r, q) of the last step on the whole arrays. -/
theorem tile3_eq (x0 x1 : Vec Ideal S4000x64 .f32) (x2 : Vec Ideal S4000x1 .f32) (x3 : Vec Ideal S1x64 .f32)
    (agg hw : FVec Ideal S100000x64 .f32) (d2 : FVec Ideal S100000 .f32) (b : FVec Ideal S64 .f32)
    (p : Fin 4000) (q : Fin 64) (r : Fin 100000)
    (h0 : x0 (ix2 p q) = agg (ix2 r q)) (h1 : x1 (ix2 p q) = hw (ix2 r q))
    (h2 : x2 (ix2 p (0 : Fin 1)) = d2 (ix1 r)) (h3 : x3 (ix2 (0 : Fin 1) q) = b (ix1 q)) :
    k3_pay1 (F := Ideal) x0 x1 x2 x3 (ix2 p q) = Cert.Spec.combine agg hw d2 b (ix2 r q) := by
  rw [k3_pay1_apply, combine_apply, h0, h1, h2, h3]

variable (V : (c : Dev nD) → (b : Ref sig .tc) → Buf (Elt Ideal) ((c : Thread nD τ).loc b))

/-- The block index of each window at each of the 25 tiles: the three row-tiled inputs and the result are at tile t
    of the rows, the bias row is the one block of its array. -/
theorem index_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The neighbourhood sum's tile at t, entry (p, q), is the array at row 4000·t + p. -/
theorem iblk3_0_apply (c : Dev nD) (t : Fin cfg3.N) (p : Fin 4000) (q : Fin 64) (r : Fin 100000)
    (hr : r.val = t.val * 4000 + p.val) :
    (iblk3 V c 0 t : Vec Ideal S4000x64 .f32) (ix2 p q) = (V c main_v44 : S100000x64.Idx → EReal) (ix2 r q) := by
  obtain ⟨e0, e1, -⟩ := index_facts3 t
  unfold iblk3
  rw [View.read_apply]
  show V c main_v44 _ = V c main_v44 _
  refine congrArg (V c main_v44) (funext fun a => Fin.ext ?_)
  match a with
  | ⟨0, _⟩ => show win3_0.index t (0 : Fin 2) * 4000 + 1 * p.val = r.val; rw [e0, hr]; omega
  | ⟨1, _⟩ => show win3_0.index t (1 : Fin 2) * 64 + 1 * q.val = q.val; rw [e1]; omega

/-- The tile of h · W at t, entry (p, q), is the array at row 4000·t + p. -/
theorem iblk3_1_apply (c : Dev nD) (t : Fin cfg3.N) (p : Fin 4000) (q : Fin 64) (r : Fin 100000)
    (hr : r.val = t.val * 4000 + p.val) :
    (iblk3 V c 1 t : Vec Ideal S4000x64 .f32) (ix2 p q) = (V c main_v31 : S100000x64.Idx → EReal) (ix2 r q) := by
  obtain ⟨-, -, e2, e3, -⟩ := index_facts3 t
  unfold iblk3
  rw [View.read_apply]
  show V c main_v31 _ = V c main_v31 _
  refine congrArg (V c main_v31) (funext fun a => Fin.ext ?_)
  match a with
  | ⟨0, _⟩ => show win3_1.index t (0 : Fin 2) * 4000 + 1 * p.val = r.val; rw [e2, hr]; omega
  | ⟨1, _⟩ => show win3_1.index t (1 : Fin 2) * 64 + 1 * q.val = q.val; rw [e3]; omega

/-- The node factor's tile at t, entry (p, 0), is the column at row 4000·t + p. -/
theorem iblk3_2_apply (c : Dev nD) (t : Fin cfg3.N) (p : Fin 4000) (u : Fin 1) (r : Fin 100000)
    (hr : r.val = t.val * 4000 + p.val) :
    (iblk3 V c 2 t : Vec Ideal S4000x1 .f32) (ix2 p u) = (V c main_v45 : S100000x1.Idx → EReal) (ix2 r u) := by
  obtain ⟨-, -, -, -, e4, e5, -⟩ := index_facts3 t
  unfold iblk3
  rw [View.read_apply]
  show V c main_v45 _ = V c main_v45 _
  refine congrArg (V c main_v45) (funext fun a => Fin.ext ?_)
  match a with
  | ⟨0, _⟩ => show win3_2.index t (0 : Fin 2) * 4000 + 1 * p.val = r.val; rw [e4, hr]; omega
  | ⟨1, _⟩ => show win3_2.index t (1 : Fin 2) * 1 + 1 * u.val = u.val; rw [e5]; omega

/-- The bias block at every tile is the whole bias row. -/
theorem iblk3_3_apply (c : Dev nD) (t : Fin cfg3.N) (u : Fin 1) (q : Fin 64) :
    (iblk3 V c 3 t : Vec Ideal S1x64 .f32) (ix2 u q) = (V c main_v46 : S1x64.Idx → EReal) (ix2 u q) := by
  obtain ⟨-, -, -, -, -, -, e6, e7, -⟩ := index_facts3 t
  unfold iblk3
  rw [View.read_apply]
  show V c main_v46 _ = V c main_v46 _
  refine congrArg (V c main_v46) (funext fun a => Fin.ext ?_)
  match a with
  | ⟨0, _⟩ => show win3_3.index t (0 : Fin 2) * 1 + 1 * u.val = u.val; rw [e6]; omega
  | ⟨1, _⟩ => show win3_3.index t (1 : Fin 2) * 64 + 1 * q.val = q.val; rw [e7]; omega

/-- At tile t, entry j of the tile's result is the entry of the whole-array last step that the result's block at t
    places j at. -/
theorem tile3_at (c : Dev nD) (agg hw : FVec Ideal S100000x64 .f32) (d2 : FVec Ideal S100000 .f32) (b : FVec Ideal S64 .f32)
    (ha : V c main_v44 = agg) (hhw : V c main_v31 = hw) (hd : V c main_v45 = shapeCast _ d2 shapeCasts_S100000_S100000x1)
    (hb : V c main_v46 = shapeCast _ b shapeCasts_S64_S1x64) (t : Fin cfg3.N) (j : S4000x64.Idx) :
    k3_pay1 (F := Ideal) (iblk3 V c 0 t) (iblk3 V c 1 t) (iblk3 V c 2 t) (iblk3 V c 3 t) j
      = Cert.Spec.combine agg hw d2 b (((cfg3.win 4).blk t).view.emb j) := by
  obtain ⟨-, -, -, -, -, -, -, -, e8, e9⟩ := index_facts3 t
  have ht : t.val < 25 := lt_of_lt_of_eq t.isLt N_3
  obtain ⟨p, q, rfl⟩ : ∃ (p : Fin 4000) (q : Fin 64), j = ix2 p q := ⟨j 0, j 1, eq_ix2 j⟩
  obtain ⟨r, hr⟩ : ∃ r : Fin 100000, r.val = t.val * 4000 + p.val := ⟨⟨t.val * 4000 + p.val, by omega⟩, rfl⟩
  have hemb : ((cfg3.win 4).blk t).view.emb (ix2 p q) = (ix2 r q : S100000x64.Idx) :=
    funext fun a => Fin.ext (by
      match a with
      | ⟨0, _⟩ => show win3_4.index t (0 : Fin 2) * 4000 + 1 * p.val = r.val; rw [e8, hr]; omega
      | ⟨1, _⟩ => show win3_4.index t (1 : Fin 2) * 64 + 1 * q.val = q.val; rw [e9]; omega)
  rw [hemb]
  refine tile3_eq (iblk3 V c 0 t) (iblk3 V c 1 t) (iblk3 V c 2 t) (iblk3 V c 3 t) agg hw d2 b p q r ?_ ?_ ?_ ?_
  · rw [iblk3_0_apply V c t p q r hr, ha]
  · rw [iblk3_1_apply V c t p q r hr, hhw]
  · rw [iblk3_2_apply V c t p 0 r hr, hd]; exact column_apply d2 r 0
  · rw [iblk3_3_apply V c t 0 q, hb]; exact row_apply b 0 q

/-- What tile t writes back is rows 4000·t … 4000·t + 3999 of the last step on the whole arrays. -/
theorem flushed3_eq (c : Dev nD) (agg hw : FVec Ideal S100000x64 .f32) (d2 : FVec Ideal S100000 .f32) (b : FVec Ideal S64 .f32)
    (ha : V c main_v44 = agg) (hhw : V c main_v31 = hw) (hd : V c main_v45 = shapeCast _ d2 shapeCasts_S100000_S100000x1)
    (hb : V c main_v46 = shapeCast _ b shapeCasts_S64_S1x64) (t : Fin cfg3.N) :
    (dat3 (F := Ideal) V c).flushed 4 t = ((cfg3.win 4).blk t).view.read (Elt Ideal) (Cert.Spec.combine agg hw d2 b) := by
  show (cfg3.win 4).cut (grid3.coords t) ((dat3 V c).after 4 t) = _
  rw [after3_4]
  unfold out3_4
  rw [View.canon_unit_zero zero_offsets2]
  simp only [View.ld_unit_zero (S := S4000x64) zero_offsets2, View.ld_unit_zero (S := S4000x1) zero_offsets2,
    View.ld_unit_zero (S := S1x64) zero_offsets2]
  funext j
  exact tile3_at V c agg hw d2 b ha hhw hd hb t j

/-- An index of the result array is in tile t's block iff each coordinate is in the block's range on its axis. -/
theorem mem_blk3 (t : Fin cfg3.N) (i : S100000x64.Idx) :
    i ∈ ((cfg3.win 4).blk t).view.set ↔ ∀ a : Fin 2, win3_4.index t a * S4000x64.size a ≤ (i a).val
      ∧ (i a).val < win3_4.index t a * S4000x64.size a + S4000x64.size a := by
  show i ∈ ((View.whole main_v47).slice (win3_4.rect t)).set ↔ _
  rw [View.set_slice_whole, Rect.mem_set_unit]
  exact Iff.rfl

/-- Every entry of the result array is written back by the tile its row lies in: row r by tile r / 4000. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, ht⟩ : ∃ t : Fin cfg3.N, t.val = (i 0).val / 4000 :=
    ⟨⟨(i 0).val / 4000, by rw [show cfg3.N = 25 from N_3]; omega⟩, rfl⟩
  obtain ⟨-, -, -, -, -, -, -, -, e8, e9⟩ := index_facts3 t
  refine ⟨t, flush3_4 t, ?_⟩
  rw [mem_blk3]
  intro a
  match a with
  | ⟨0, _⟩ =>
    show win3_4.index t (0 : Fin 2) * 4000 ≤ (i 0).val ∧ (i 0).val < win3_4.index t (0 : Fin 2) * 4000 + 4000
    rw [e8, ht]; omega
  | ⟨1, _⟩ =>
    show win3_4.index t (1 : Fin 2) * 64 ≤ (i 1).val ∧ (i 1).val < win3_4.index t (1 : Fin 2) * 64 + 64
    rw [e9]; omega

/-- REGION 3: the result array of the first convolution's last-step kernel is lrelu (agg + hw · d2 + b). -/
theorem region3 (c : Dev nD) (agg hw : FVec Ideal S100000x64 .f32) (d2 : FVec Ideal S100000 .f32) (b : FVec Ideal S64 .f32)
    (ha : V c main_v44 = agg) (hhw : V c main_v31 = hw) (hd : V c main_v45 = shapeCast _ d2 shapeCasts_S100000_S100000x1)
    (hb : V c main_v46 = shapeCast _ b shapeCasts_S64_S1x64) :
    (dat3 (F := Ideal) V c).arrAt 4 cfg3.N = Cert.Spec.combine agg hw d2 b :=
  (dat3 (F := Ideal) V c).arrAt_eq_of_cover 4 (Cert.Spec.combine agg hw d2 b)
    (fun t _ => flushed3_eq V c agg hw d2 b ha hhw hd hb t) cover3

end Cert.KernelIdeal.RegionValue

end
-- ==== Proof.Region5.lean ====
/-
  The second convolution's last step, from row tiles to the whole array. The kernel walks 25 row tiles of 4000 rows; at
  tile t it reads rows 4000·t … 4000·t + 3999 of the neighbourhood sum, of h · W and of the node factor's column, and
  the whole bias row, and writes lrelu (agg + hw · factor + bias) back to the same rows of its result. Every row lies
  in exactly one tile, so the result array is the last step applied to the whole arrays.
-/
import proofs.«156511_j87832081203316_1_alg».proof.Proof.Gen.KernelIdeal.Frame
import proofs.«156511_j87832081203316_1_alg».proof.Proof.Spec
import proofs.«156511_j87832081203316_1_alg».proof.Proof.CombineEntry
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Cert.KernelIdeal Cert.KernelIdeal.Gen
open Idealize.ShloMosaic.ValueIdx
open scoped BigOperators

namespace Cert.KernelIdeal.RegionValue

/-- One tile: when row p of each row-tiled block is row r of its array, and the bias block is the bias row, entry
    (p, q) of the tile's result is entry (r, q) of the last step on the whole arrays. -/
theorem tile5_eq (x0 x1 : Vec Ideal S4000x64 .f32) (x2 : Vec Ideal S4000x1 .f32) (x3 : Vec Ideal S1x64 .f32)
    (agg hw : FVec Ideal S100000x64 .f32) (d2 : FVec Ideal S100000 .f32) (b : FVec Ideal S64 .f32)
    (p : Fin 4000) (q : Fin 64) (r : Fin 100000)
    (h0 : x0 (ix2 p q) = agg (ix2 r q)) (h1 : x1 (ix2 p q) = hw (ix2 r q))
    (h2 : x2 (ix2 p (0 : Fin 1)) = d2 (ix1 r)) (h3 : x3 (ix2 (0 : Fin 1) q) = b (ix1 q)) :
    k5_pay1 (F := Ideal) x0 x1 x2 x3 (ix2 p q) = Cert.Spec.combine agg hw d2 b (ix2 r q) := by
  rw [k5_pay1_apply, combine_apply, h0, h1, h2, h3]

variable (V : (c : Dev nD) → (b : Ref sig .tc) → Buf (Elt Ideal) ((c : Thread nD τ).loc b))

/-- The block index of each window at each of the 25 tiles: the three row-tiled inputs and the result are at tile t
    of the rows, the bias row is the one block of its array. -/
theorem index_facts5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The neighbourhood sum's tile at t, entry (p, q), is the array at row 4000·t + p. -/
theorem iblk5_0_apply (c : Dev nD) (t : Fin cfg5.N) (p : Fin 4000) (q : Fin 64) (r : Fin 100000)
    (hr : r.val = t.val * 4000 + p.val) :
    (iblk5 V c 0 t : Vec Ideal S4000x64 .f32) (ix2 p q) = (V c main_v61 : S100000x64.Idx → EReal) (ix2 r q) := by
  obtain ⟨e0, e1, -⟩ := index_facts5 t
  unfold iblk5
  rw [View.read_apply]
  show V c main_v61 _ = V c main_v61 _
  refine congrArg (V c main_v61) (funext fun a => Fin.ext ?_)
  match a with
  | ⟨0, _⟩ => show win5_0.index t (0 : Fin 2) * 4000 + 1 * p.val = r.val; rw [e0, hr]; omega
  | ⟨1, _⟩ => show win5_0.index t (1 : Fin 2) * 64 + 1 * q.val = q.val; rw [e1]; omega

/-- The tile of h · W at t, entry (p, q), is the array at row 4000·t + p. -/
theorem iblk5_1_apply (c : Dev nD) (t : Fin cfg5.N) (p : Fin 4000) (q : Fin 64) (r : Fin 100000)
    (hr : r.val = t.val * 4000 + p.val) :
    (iblk5 V c 1 t : Vec Ideal S4000x64 .f32) (ix2 p q) = (V c main_v48 : S100000x64.Idx → EReal) (ix2 r q) := by
  obtain ⟨-, -, e2, e3, -⟩ := index_facts5 t
  unfold iblk5
  rw [View.read_apply]
  show V c main_v48 _ = V c main_v48 _
  refine congrArg (V c main_v48) (funext fun a => Fin.ext ?_)
  match a with
  | ⟨0, _⟩ => show win5_1.index t (0 : Fin 2) * 4000 + 1 * p.val = r.val; rw [e2, hr]; omega
  | ⟨1, _⟩ => show win5_1.index t (1 : Fin 2) * 64 + 1 * q.val = q.val; rw [e3]; omega

/-- The node factor's tile at t, entry (p, 0), is the column at row 4000·t + p. -/
theorem iblk5_2_apply (c : Dev nD) (t : Fin cfg5.N) (p : Fin 4000) (u : Fin 1) (r : Fin 100000)
    (hr : r.val = t.val * 4000 + p.val) :
    (iblk5 V c 2 t : Vec Ideal S4000x1 .f32) (ix2 p u) = (V c main_v62 : S100000x1.Idx → EReal) (ix2 r u) := by
  obtain ⟨-, -, -, -, e4, e5, -⟩ := index_facts5 t
  unfold iblk5
  rw [View.read_apply]
  show V c main_v62 _ = V c main_v62 _
  refine congrArg (V c main_v62) (funext fun a => Fin.ext ?_)
  match a with
  | ⟨0, _⟩ => show win5_2.index t (0 : Fin 2) * 4000 + 1 * p.val = r.val; rw [e4, hr]; omega
  | ⟨1, _⟩ => show win5_2.index t (1 : Fin 2) * 1 + 1 * u.val = u.val; rw [e5]; omega

/-- The bias block at every tile is the whole bias row. -/
theorem iblk5_3_apply (c : Dev nD) (t : Fin cfg5.N) (u : Fin 1) (q : Fin 64) :
    (iblk5 V c 3 t : Vec Ideal S1x64 .f32) (ix2 u q) = (V c main_v63 : S1x64.Idx → EReal) (ix2 u q) := by
  obtain ⟨-, -, -, -, -, -, e6, e7, -⟩ := index_facts5 t
  unfold iblk5
  rw [View.read_apply]
  show V c main_v63 _ = V c main_v63 _
  refine congrArg (V c main_v63) (funext fun a => Fin.ext ?_)
  match a with
  | ⟨0, _⟩ => show win5_3.index t (0 : Fin 2) * 1 + 1 * u.val = u.val; rw [e6]; omega
  | ⟨1, _⟩ => show win5_3.index t (1 : Fin 2) * 64 + 1 * q.val = q.val; rw [e7]; omega

/-- At tile t, entry j of the tile's result is the entry of the whole-array last step that the result's block at t
    places j at. -/
theorem tile5_at (c : Dev nD) (agg hw : FVec Ideal S100000x64 .f32) (d2 : FVec Ideal S100000 .f32) (b : FVec Ideal S64 .f32)
    (ha : V c main_v61 = agg) (hhw : V c main_v48 = hw) (hd : V c main_v62 = shapeCast _ d2 shapeCasts_S100000_S100000x1)
    (hb : V c main_v63 = shapeCast _ b shapeCasts_S64_S1x64) (t : Fin cfg5.N) (j : S4000x64.Idx) :
    k5_pay1 (F := Ideal) (iblk5 V c 0 t) (iblk5 V c 1 t) (iblk5 V c 2 t) (iblk5 V c 3 t) j
      = Cert.Spec.combine agg hw d2 b (((cfg5.win 4).blk t).view.emb j) := by
  obtain ⟨-, -, -, -, -, -, -, -, e8, e9⟩ := index_facts5 t
  have ht : t.val < 25 := lt_of_lt_of_eq t.isLt N_5
  obtain ⟨p, q, rfl⟩ : ∃ (p : Fin 4000) (q : Fin 64), j = ix2 p q := ⟨j 0, j 1, eq_ix2 j⟩
  obtain ⟨r, hr⟩ : ∃ r : Fin 100000, r.val = t.val * 4000 + p.val := ⟨⟨t.val * 4000 + p.val, by omega⟩, rfl⟩
  have hemb : ((cfg5.win 4).blk t).view.emb (ix2 p q) = (ix2 r q : S100000x64.Idx) :=
    funext fun a => Fin.ext (by
      match a with
      | ⟨0, _⟩ => show win5_4.index t (0 : Fin 2) * 4000 + 1 * p.val = r.val; rw [e8, hr]; omega
      | ⟨1, _⟩ => show win5_4.index t (1 : Fin 2) * 64 + 1 * q.val = q.val; rw [e9]; omega)
  rw [hemb]
  refine tile5_eq (iblk5 V c 0 t) (iblk5 V c 1 t) (iblk5 V c 2 t) (iblk5 V c 3 t) agg hw d2 b p q r ?_ ?_ ?_ ?_
  · rw [iblk5_0_apply V c t p q r hr, ha]
  · rw [iblk5_1_apply V c t p q r hr, hhw]
  · rw [iblk5_2_apply V c t p 0 r hr, hd]; exact column_apply d2 r 0
  · rw [iblk5_3_apply V c t 0 q, hb]; exact row_apply b 0 q

/-- What tile t writes back is rows 4000·t … 4000·t + 3999 of the last step on the whole arrays. -/
theorem flushed5_eq (c : Dev nD) (agg hw : FVec Ideal S100000x64 .f32) (d2 : FVec Ideal S100000 .f32) (b : FVec Ideal S64 .f32)
    (ha : V c main_v61 = agg) (hhw : V c main_v48 = hw) (hd : V c main_v62 = shapeCast _ d2 shapeCasts_S100000_S100000x1)
    (hb : V c main_v63 = shapeCast _ b shapeCasts_S64_S1x64) (t : Fin cfg5.N) :
    (dat5 (F := Ideal) V c).flushed 4 t = ((cfg5.win 4).blk t).view.read (Elt Ideal) (Cert.Spec.combine agg hw d2 b) := by
  show (cfg5.win 4).cut (grid5.coords t) ((dat5 V c).after 4 t) = _
  rw [after5_4]
  unfold out5_4
  rw [View.canon_unit_zero zero_offsets2]
  simp only [View.ld_unit_zero (S := S4000x64) zero_offsets2, View.ld_unit_zero (S := S4000x1) zero_offsets2,
    View.ld_unit_zero (S := S1x64) zero_offsets2]
  funext j
  exact tile5_at V c agg hw d2 b ha hhw hd hb t j

/-- An index of the result array is in tile t's block iff each coordinate is in the block's range on its axis. -/
theorem mem_blk5 (t : Fin cfg5.N) (i : S100000x64.Idx) :
    i ∈ ((cfg5.win 4).blk t).view.set ↔ ∀ a : Fin 2, win5_4.index t a * S4000x64.size a ≤ (i a).val
      ∧ (i a).val < win5_4.index t a * S4000x64.size a + S4000x64.size a := by
  show i ∈ ((View.whole main_v64).slice (win5_4.rect t)).set ↔ _
  rw [View.set_slice_whole, Rect.mem_set_unit]
  exact Iff.rfl

/-- Every entry of the result array is written back by the tile its row lies in: row r by tile r / 4000. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ : ∃ t : Fin cfg5.N, t.val = (i 0).val / 4000 :=
    ⟨⟨(i 0).val / 4000, by rw [show cfg5.N = 25 from N_5]; omega⟩, rfl⟩
  obtain ⟨-, -, -, -, -, -, -, -, e8, e9⟩ := index_facts5 t
  refine ⟨t, flush5_4 t, ?_⟩
  rw [mem_blk5]
  intro a
  match a with
  | ⟨0, _⟩ =>
    show win5_4.index t (0 : Fin 2) * 4000 ≤ (i 0).val ∧ (i 0).val < win5_4.index t (0 : Fin 2) * 4000 + 4000
    rw [e8, ht]; omega
  | ⟨1, _⟩ =>
    show win5_4.index t (1 : Fin 2) * 64 ≤ (i 1).val ∧ (i 1).val < win5_4.index t (1 : Fin 2) * 64 + 64
    rw [e9]; omega

/-- REGION 5: the result array of the second convolution's last-step kernel is lrelu (agg + hw · d2 + b). -/
theorem region5 (c : Dev nD) (agg hw : FVec Ideal S100000x64 .f32) (d2 : FVec Ideal S100000 .f32) (b : FVec Ideal S64 .f32)
    (ha : V c main_v61 = agg) (hhw : V c main_v48 = hw) (hd : V c main_v62 = shapeCast _ d2 shapeCasts_S100000_S100000x1)
    (hb : V c main_v63 = shapeCast _ b shapeCasts_S64_S1x64) :
    (dat5 (F := Ideal) V c).arrAt 4 cfg5.N = Cert.Spec.combine agg hw d2 b :=
  (dat5 (F := Ideal) V c).arrAt_eq_of_cover 4 (Cert.Spec.combine agg hw d2 b)
    (fun t _ => flushed5_eq V c agg hw d2 b ha hhw hd hb t) cover5

end Cert.KernelIdeal.RegionValue

end
-- ==== Proof.lean ====
/-
  Two programs compute one graph network — a two-layer encoder, two graph convolutions and a classifier over
  100000 nodes and 1200000 edges: the kernel program runs its dense stages as seven row-tiled pallas_calls
  (4000 rows a tile, the weights resident, a bf16 matmul accumulating in f32) among host gathers and scatter-adds;
  the reference program is host operations only. Read over the extended reals the two end with the same logits
  and the same node embedding, element by element, from memories that agree on the arguments.

  Why they agree: a change of float format is the identity over the extended reals, and a tile's matmul into a
  zero accumulator and the host's dot_general are the same finite sum over the contracted axis, so each dense
  pallas_call leaves in its output array exactly the reference's layer of its input arrays (row r of the output
  depends on row r of the input only, and the tiles cover the rows); the normalization, the edge weights and the
  neighbourhood sums are the same host operations on both sides, computed once by the kernel program and once per
  convolution by the reference, from the same edge list. No algebraic law beyond reading both sides index by index
  is used, so finiteness of the inputs is never opened.

  The pieces: Spec.lean states the network layer by layer; Encoder1, Encoder2, Region2 … Region5 and Classifier
  prove each pallas_call's output array is its layer; KRun.lean re-reads the launch with the two result buffers
  named; ChainHost.lean and ChainFinal.lean walk the program's boundaries; RefValue.lean identifies the reference's
  result terms with the network. The three frames are the generated frame proofs (the reference's is its run with the results dropped),
  and the kernel program's idealization rewrote nothing.
-/
import proofs.«156511_j87832081203316_1_alg».proof.Defs
import proofs.«156511_j87832081203316_1_alg».proof.Proof.Gen.Kernel
import proofs.«156511_j87832081203316_1_alg».proof.Proof.Gen.Kernel.Frame
import proofs.«156511_j87832081203316_1_alg».proof.Proof.Gen.KernelIdeal
import proofs.«156511_j87832081203316_1_alg».proof.Proof.Gen.KernelIdeal.Frame
import proofs.«156511_j87832081203316_1_alg».proof.Proof.Gen.ReferenceIdeal
import proofs.«156511_j87832081203316_1_alg».proof.Proof.Gen.Pre_finite_inputs
import proofs.«156511_j87832081203316_1_alg».proof.Proof.Gen.ReferenceIdeal.Run
import proofs.«156511_j87832081203316_1_alg».proof.Proof.KRun
import proofs.«156511_j87832081203316_1_alg».proof.Proof.ChainFinal
import proofs.«156511_j87832081203316_1_alg».proof.Proof.RefValue
import proofs.«156511_j87832081203316_1_alg».proof.Proof.Encoder1
import proofs.«156511_j87832081203316_1_alg».proof.Proof.Encoder2
import proofs.«156511_j87832081203316_1_alg».proof.Proof.Classifier
import proofs.«156511_j87832081203316_1_alg».proof.Proof.Region2
import proofs.«156511_j87832081203316_1_alg».proof.Proof.Region4
import proofs.«156511_j87832081203316_1_alg».proof.Proof.Region3
import proofs.«156511_j87832081203316_1_alg».proof.Proof.Region5
import Idealize.ShloMosaic.Adequacy
import Idealize.ShloMosaic.Init

set_option maxRecDepth 16384

noncomputable section

namespace Cert.Proof

open Idealize.ShloMosaic Idealize.ShloMosaic.TcCoe Idealize.SL.Sem

/-- Each pallas_call's output array is its layer of its input arrays. -/
theorem regions : Cert.KernelIdeal.Chain.Regions := ⟨fun V c x W b hx hW hb => Cert.KernelIdeal.RegionValue.region0 V c x W b hx hW hb,
   fun V c h W b hh hW hb => Cert.KernelIdeal.RegionValue.region1 V c h W b hh hW hb,
   fun V c h W hh hW => Cert.KernelIdeal.RegionValue.region2 V c h W hh hW,
   fun V c agg hw d2 b ha hhw hd hb => Cert.KernelIdeal.RegionValue.region3 V c agg hw d2 b ha hhw hd hb,
   fun V c h W hh hW => Cert.KernelIdeal.RegionValue.region4 V c h W hh hW,
   fun V c agg hw d2 b ha hhw hd hb => Cert.KernelIdeal.RegionValue.region5 V c agg hw d2 b ha hhw hd hb,
   fun V c h W b hh hW hb => Cert.KernelIdeal.RegionValue.region6 V c h W b hh hW hb⟩

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote no operation of the kernel program. -/
theorem preserves : Cert.preserves_Kernel_KernelIdeal := trivial

/-- Both programs end with the classifier on the network's embedding in the first result and the embedding in
    the second: the kernel program by the walk through its boundaries, the reference by reading its result
    terms, the arguments' agreement carrying one side's arrays to the other's. -/
theorem algebraic : Cert.algebraic_KernelIdeal_ReferenceIdeal := by
  intro m ρ m' ρ' _ hagree
  refine ⟨fun c => Cert.Spec.classify (F := Ideal) (Cert.KernelIdeal.Chain.h4 m c)
      (Cert.KernelIdeal.Chain.arg m c Cert.KernelIdeal.main_arg9) (Cert.KernelIdeal.Chain.arg m c Cert.KernelIdeal.main_arg10),
    fun c => Cert.KernelIdeal.Chain.h4 m c, ?_, ?_⟩
  · refine (θ_run Cert.KernelIdeal.defs _ _).mono (fun r h c => ?_) (Cert.KernelIdeal.RunValue.run_values (F := Ideal) m ρ)
    obtain ⟨h66, h64, hargs⟩ := h c
    exact ⟨h66.trans (Cert.KernelIdeal.Chain.W12_v66 m ρ c regions), h64.trans (Cert.KernelIdeal.Chain.W12_v64 m ρ c regions), hargs⟩
  · refine (θ_run Cert.ReferenceIdeal.defs _ _).mono (fun r h c => ?_) (Cert.ReferenceIdeal.Value.run (F := Ideal) m' ρ')
    obtain ⟨h123, h119, hargs⟩ := h c
    have e : Cert.ReferenceIdeal.RefValue.embedOf m' c = Cert.KernelIdeal.Chain.h4 m c := by
      rw [Cert.KernelIdeal.Chain.h4_eq m c]
      dsimp only [Cert.ReferenceIdeal.RefValue.embedOf, Cert.ReferenceIdeal.RefValue.arg, Cert.KernelIdeal.Chain.arg]
      rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.2.2]
    refine ⟨(h123.trans (Cert.ReferenceIdeal.RefValue.logits_eq m' c)).trans ?_, (h119.trans (Cert.ReferenceIdeal.RefValue.embed_eq m' c)).trans e, hargs⟩
    rw [e]
    dsimp only [Cert.ReferenceIdeal.RefValue.arg, Cert.KernelIdeal.Chain.arg]
    rw [(hagree c).2.2.2.2.2.2.2.2.2.1, (hagree c).2.2.2.2.2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
